-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S20000x256 : Shape := ⟨2, ![20000, 256]⟩
abbrev S2x256x256 : Shape := ⟨3, ![2, 256, 256]⟩
abbrev S256x256 : Shape := ⟨2, ![256, 256]⟩
abbrev S256 : Shape := ⟨1, ![256]⟩
abbrev S640000 : Shape := ⟨1, ![640000]⟩
abbrev S2000x5 : Shape := ⟨2, ![2000, 5]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S640000 : S_.BroadcastsInDim S640000 (![] : Fin 0 → Fin S640000.rank)
  reducesTo_S640000_S_d0 : S640000.ReducesTo [0] S_
  bcast_S_S2000x5 : S_.BroadcastsInDim S2000x5 (![] : Fin 0 → Fin S2000x5.rank)
  reducesTo_S2000x5_S_d0_1 : S2000x5.ReducesTo [0, 1] S_

variable [Facts]

def fn_part2 {F : FTy → Type} [FloatOps F] (main_arg11 : FVec F S2000x5 .f32) (main_v33 : IVec S_ 1) : IVec S_ 1 :=
  let main_v34 : FVec F S2000x5 .f32 := Host.absf main_arg11
  let main_cst_12 : FVec F S_ .f32 := constant S_ .f32 0x7F800000#32
  let main_v35 : FVec F S2000x5 .f32 := broadcastInDim S2000x5 ![] bcast_S_S2000x5 main_cst_12
  let main_v36 : IVec S2000x5 1 := cmpf .olt main_v34 main_v35
  let main_c_13 : IVec S_ 1 := constantI S_ 1 1#1
  let main_v37 : IVec S_ 1 := (fun x v => Host.reduce IntOp.andi x v reducesTo_S2000x5_S_d0_1 h_S_) main_v36 main_c_13
  let main_v38 : IVec S_ 1 := andi main_v33 main_v37
  main_v38

def fn_part1 {F : FTy → Type} [FloatOps F] (main_arg5 : FVec F S256x256 .f32) (main_arg6 : FVec F S256 .f32) (main_arg9 : FVec F S640000 .f32) (main_arg11 : FVec F S2000x5 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S640000 .f32 := Host.absf main_arg9
  let main_cst_10 : FVec F S_ .f32 := constant S_ .f32 0x7F800000#32
  let main_v30 : FVec F S640000 .f32 := broadcastInDim S640000 ![] bcast_S_S640000 main_cst_10
  let main_v31 : IVec S640000 1 := cmpf .olt main_v29 main_v30
  let main_c_11 : IVec S_ 1 := constantI S_ 1 1#1
  let main_v32 : IVec S_ 1 := (fun x v => Host.reduce IntOp.andi x v reducesTo_S640000_S_d0 h_S_) main_v31 main_c_11
  let main_v33 : IVec S_ 1 := andi main_v28 main_v32
  fn_part2 (F := F) main_arg11 main_v33

def fn {F : FTy → Type} [FloatOps F] (main_arg0 : IVec S16384 32) (main_arg1 : FVec F S20000x256 .f32) (main_arg2 : FVec F S2x256x256 .f32) (main_arg3 : FVec F S256x256 .f32) (main_arg4 : FVec F S256 .f32) (main_arg5 : FVec F S256x256 .f32) (main_arg6 : FVec F S256 .f32) (main_arg7 : IVec S640000 32) (main_arg8 : IVec S640000 32) (main_arg9 : FVec F S640000 .f32) (main_arg10 : IVec S2000x5 32) (main_arg11 : FVec F S2000x5 .f32) : IVec S_ 1 :=
  let main_v0 : FVec F S20000x256 .f32 := Host.absf main_arg1
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S2x256x256 .f32 := Host.absf main_arg2
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg9 main_arg11 main_v13 main_v16
-- ==== Kernel.lean ====
abbrev S16384 : Shape := ⟨1, ![16384]⟩
abbrev S20000x256 : Shape := ⟨2, ![20000, 256]⟩
abbrev S2x256x256 : Shape := ⟨3, ![2, 256, 256]⟩
abbrev S256x256 : Shape := ⟨2, ![256, 256]⟩
abbrev S256 : Shape := ⟨1, ![256]⟩
abbrev S640000 : Shape := ⟨1, ![640000]⟩
abbrev S2000x5 : Shape := ⟨2, ![2000, 5]⟩
abbrev S640000x1 : Shape := ⟨2, ![640000, 1]⟩
abbrev S_ : Shape := ⟨0, ![]⟩
abbrev S640000x256 : Shape := ⟨2, ![640000, 256]⟩
abbrev S1x256x256 : Shape := ⟨3, ![1, 256, 256]⟩
abbrev S1x256 : Shape := ⟨2, ![1, 256]⟩
abbrev S2000x256 : Shape := ⟨2, ![2000, 256]⟩
abbrev S2000x5x1 : Shape := ⟨3, ![2000, 5, 1]⟩
abbrev S2000x5x256 : Shape := ⟨3, ![2000, 5, 256]⟩
abbrev S2000 : Shape := ⟨1, ![2000]⟩
abbrev S2000x1 : Shape := ⟨2, ![2000, 1]⟩
abbrev S16384x1 : Shape := ⟨2, ![16384, 1]⟩
abbrev S16384x256 : Shape := ⟨2, ![16384, 256]⟩

abbrev nBuf : Space → Nat
  | .hbm => 102
  | .vmem => 20
  | .smem => 0
  | _ => 0

abbrev bufTy : (tb : Table) → Fin (tcTables nBuf tb) → BufTy
  | .hbm, ⟨0, _⟩ => ⟨S16384, .i32⟩
  | .hbm, ⟨1, _⟩ => ⟨S20000x256, .f32⟩
  | .hbm, ⟨2, _⟩ => ⟨S2x256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S640000, .i32⟩
  | .hbm, ⟨8, _⟩ => ⟨S640000, .i32⟩
  | .hbm, ⟨9, _⟩ => ⟨S640000, .f32⟩
  | .hbm, ⟨10, _⟩ => ⟨S2000x5, .i32⟩
  | .hbm, ⟨11, _⟩ => ⟨S2000x5, .f32⟩
  | .hbm, ⟨12, _⟩ => ⟨S640000x1, .f32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x256, .f32⟩
  | .hbm, ⟨22, _⟩ => ⟨S640000x256, .f32⟩
  | .hbm, ⟨23, _⟩ => ⟨S640000x256, .f32⟩
  | .hbm, ⟨24, _⟩ => ⟨S_, .f32⟩
  | .hbm, ⟨25, _⟩ => ⟨S20000x256, .f32⟩
  | .hbm, ⟨26, _⟩ => ⟨S640000x1, .i32⟩
  | .hbm, ⟨27, _⟩ => ⟨S20000x256, .f32⟩
  | .hbm, ⟨28, _⟩ => ⟨S1x256x256, .f32⟩
  | .hbm, ⟨29, _⟩ => ⟨S256x256, .f32⟩
  | .hbm, ⟨30, _⟩ => ⟨S_, .f32⟩
  | .hbm, ⟨31, _⟩ => ⟨S256, .f32⟩
  | .hbm, ⟨32, _⟩ => ⟨S1x256, .f32⟩
  | .hbm, ⟨33, _⟩ => ⟨S20000x256, .f32⟩
  | .hbm, ⟨34, _⟩ => ⟨S640000x1, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x256, .f32⟩
  | .hbm, ⟨44, _⟩ => ⟨S640000x256, .f32⟩
  | .hbm, ⟨45, _⟩ => ⟨S640000x256, .f32⟩
  | .hbm, ⟨46, _⟩ => ⟨S_, .f32⟩
  | .hbm, ⟨47, _⟩ => ⟨S20000x256, .f32⟩
  | .hbm, ⟨48, _⟩ => ⟨S640000x1, .i32⟩
  | .hbm, ⟨49, _⟩ => ⟨S20000x256, .f32⟩
  | .hbm, ⟨50, _⟩ => ⟨S1x256x256, .f32⟩
  | .hbm, ⟨51, _⟩ => ⟨S256x256, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S20000x256, .f32⟩
  | .hbm, ⟨56, _⟩ => ⟨S_, .i32⟩
  | .hbm, ⟨57, _⟩ => ⟨S2000x5, .i32⟩
  | .hbm, ⟨58, _⟩ => ⟨S2000x5, .i32⟩
  | .hbm, ⟨59, _⟩ => ⟨S_, .i32⟩
  | .hbm, ⟨60, _⟩ => ⟨S2000x5, .i32⟩
  | .hbm, ⟨61, _⟩ => ⟨S2000x5, .i1⟩
  | .hbm, ⟨62, _⟩ => ⟨S_, .i32⟩
  | .hbm, ⟨63, _⟩ => ⟨S2000x5, .i32⟩
  | .hbm, ⟨64, _⟩ => ⟨S2000x5, .i32⟩
  | .hbm, ⟨65, _⟩ => ⟨S2000x5, .i32⟩
  | .hbm, ⟨66, _⟩ => ⟨S2000x5x1, .i32⟩
  | .hbm, ⟨67, _⟩ => ⟨S2000x5x256, .f32⟩
  | .hbm, ⟨68, _⟩ => ⟨S2000x5x1, .f32⟩
  | .hbm, ⟨69, _⟩ => ⟨S2000x5x256, .f32⟩
  | .hbm, ⟨70, _⟩ => ⟨S2000x5x256, .f32⟩
  | .hbm, ⟨71, _⟩ => ⟨S_, .f32⟩
  | .hbm, ⟨72, _⟩ => ⟨S2000x256, .f32⟩
  | .hbm, ⟨73, _⟩ => ⟨S_, .f32⟩
  | .hbm, ⟨74, _⟩ => ⟨S2000, .f32⟩
  | .hbm, ⟨75, _⟩ => ⟨S1x256, .f32⟩
  | .hbm, ⟨76, _⟩ => ⟨S2000x256, .f32⟩
  | .hbm, ⟨77, _⟩ => ⟨S1x256, .f32⟩
  | .hbm, ⟨78, _⟩ => ⟨S2000x256, .f32⟩
  | .hbm, ⟨79, _⟩ => ⟨S2000x1, .f32⟩
  | .hbm, ⟨80, _⟩ => ⟨S_, .f32⟩
  | .hbm, ⟨81, _⟩ => ⟨S2000x1, .f32⟩
  | .hbm, ⟨82, _⟩ => ⟨S2000x1, .i1⟩
  | .hbm, ⟨83, _⟩ => ⟨S_, .f32⟩
  | .hbm, ⟨84, _⟩ => ⟨S2000x1, .f32⟩
  | .hbm, ⟨85, _⟩ => ⟨S2000x1, .i1⟩
  | .hbm, ⟨86, _⟩ => ⟨S2000x256, .i1⟩
  | .hbm, ⟨87, _⟩ => ⟨S2000x256, .f32⟩
  | .hbm, ⟨88, _⟩ => ⟨S_, .f32⟩
  | .hbm, ⟨89, _⟩ => ⟨S_, .f32⟩
  | .hbm, ⟨90, _⟩ => ⟨S2000x256, .i1⟩
  | .hbm, ⟨91, _⟩ => ⟨S2000x256, .f32⟩
  | .hbm, ⟨92, _⟩ => ⟨S2000x256, .f32⟩
  | .hbm, ⟨93, _⟩ => ⟨S_, .i32⟩
  | .hbm, ⟨94, _⟩ => ⟨S16384, .i32⟩
  | .hbm, ⟨95, _⟩ => ⟨S16384, .i1⟩
  | .hbm, ⟨96, _⟩ => ⟨S_, .i32⟩
  | .hbm, ⟨97, _⟩ => ⟨S16384, .i32⟩
  | .hbm, ⟨98, _⟩ => ⟨S16384, .i32⟩
  | .hbm, ⟨99, _⟩ => ⟨S16384, .i32⟩
  | .hbm, ⟨100, _⟩ => ⟨S16384x1, .i32⟩
  | .hbm, ⟨101, _⟩ => ⟨S16384x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S1x256, .f32⟩
  | .local _ .vmem, ⟨19, _⟩ => ⟨S2000x256, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_call0_v0 : Ref sig .tc := ⟨.hbm, 86, rfl⟩
abbrev main_v59 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2000x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2000x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2000x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2000x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x256_0_1 : S640000x1.BroadcastsInDim S640000x256 (![0, 1] : Fin 2 → Fin S640000x256.rank)
  bcast_S_S20000x256 : S_.BroadcastsInDim S20000x256 (![] : Fin 0 → Fin S20000x256.rank)
  slices_S2x256x256_S1x256x256_0_0_0 : S2x256x256.Slices ![0, 0, 0] S1x256x256
  shapeCasts_S1x256x256_S256x256 : S1x256x256.ShapeCasts S256x256
  bcast_S_S256 : S_.BroadcastsInDim S256 (![] : Fin 0 → Fin S256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2x256x256_S1x256x256_1_0_0 : S2x256x256.Slices ![1, 0, 0] S1x256x256
  bcast_S_S2000x5 : S_.BroadcastsInDim S2000x5 (![] : Fin 0 → Fin S2000x5.rank)
  bcast_S2000x5_S2000x5x1_0_1 : S2000x5.BroadcastsInDim S2000x5x1 (![0, 1] : Fin 2 → Fin S2000x5x1.rank)
  bcast_S2000x5x1_S2000x5x256_0_1_2 : S2000x5x1.BroadcastsInDim S2000x5x256 (![0, 1, 2] : Fin 3 → Fin S2000x5x256.rank)
  reducesTo_S2000x5x256_S2000x256_d1 : S2000x5x256.ReducesTo [1] S2000x256
  h_S_ : 0 < S_.numel
  reducesTo_S2000x5_S2000_d1 : S2000x5.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  bcast_S_S2000x256 : S_.BroadcastsInDim S2000x256 (![] : Fin 0 → Fin S2000x256.rank)
  bcast_S_S16384 : S_.BroadcastsInDim S16384 (![] : Fin 0 → Fin S16384.rank)
  bcast_S16384_S16384x1_0 : S16384.BroadcastsInDim S16384x1 (![0] : Fin 1 → Fin S16384x1.rank)
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  dot_S2000x256_S256x256_S2000x256_1_0_0_1_n_n_wf : DotDims.WF S2000x256 S256x256 S2000x256 [1] [0] [0] [1] [] []
  gather_S20000x256_S2000x5x1_S2000x5x256_2_0_n_n_0_2_1256_wf : GatherDims.WF S20000x256 S2000x5x1 S2000x5x256 [2] [0] [] [0] [] 2 ![1, 256]
  gather_S2000x256_S16384x1_S16384x256_1_0_n_n_0_1_1256_wf : GatherDims.WF S2000x256 S16384x1 S16384x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .f32 = 32 ∨ (Rect.block (s := S20000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S2000x256.size a
  hwx2_0 : ∀ i : grid2.Coords, EltTy.bits .f32 = 32 ∨ (Rect.block (s := S2000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S2000x256.size a
  hwx2_3 : ∀ i : grid2.Coords, EltTy.bits .f32 = 32 ∨ (Rect.block (s := S2000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S2000x256.size a
  hwx3_0 : ∀ i : grid3.Coords, EltTy.bits .f32 = 32 ∨ (Rect.block (s := S2000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S2000x256.size a
  hwx3_3 : ∀ i : grid3.Coords, EltTy.bits .f32 = 32 ∨ (Rect.block (s := S2000x256) S2000x256.size (cc3_transform_3 i) (hinb3_3 i)).WholeWords (EltTy.packing .f32)

variable [Facts₀]

def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S2000x5x1_S2000x5x256_2_0_n_n_0_2_1256 : GatherDims S20000x256 S2000x5x1 S2000x5x256 where
  offsetDims := [2]
  collapsedSliceDims := [0]
  operandBatchingDims := []
  startIndicesBatchingDims := []
  startIndexMap := [0]
  indexVectorDim := 2
  sliceSizes := ![1, 256]
  wf := gather_S20000x256_S2000x5x1_S2000x5x256_2_0_n_n_0_2_1256_wf
def gather_S2000x256_S16384x1_S16384x256_1_0_n_n_0_1_1256 : GatherDims S2000x256 S16384x1 S16384x256 where
  offsetDims := [1]
  collapsedSliceDims := [0]
  operandBatchingDims := []
  startIndicesBatchingDims := []
  startIndexMap := [0]
  indexVectorDim := 1
  sliceSizes := ![1, 256]
  wf := gather_S2000x256_S16384x1_S16384x256_1_0_n_n_0_1_1256_wf

abbrev win0_0 : Pipeline.Window sig grid0 :=
  Pipeline.Window.ofSpec (Memref.whole main_v12) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S2000x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S2000x256.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S2000x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S2000x256.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16384 : Shape := ⟨1, ![16384]⟩
abbrev S20000x256 : Shape := ⟨2, ![20000, 256]⟩
abbrev S2x256x256 : Shape := ⟨3, ![2, 256, 256]⟩
abbrev S256x256 : Shape := ⟨2, ![256, 256]⟩
abbrev S256 : Shape := ⟨1, ![256]⟩
abbrev S640000 : Shape := ⟨1, ![640000]⟩
abbrev S2000x5 : Shape := ⟨2, ![2000, 5]⟩
abbrev S640000x1 : Shape := ⟨2, ![640000, 1]⟩
abbrev S_ : Shape := ⟨0, ![]⟩
abbrev S640000x256 : Shape := ⟨2, ![640000, 256]⟩
abbrev S1x256x256 : Shape := ⟨3, ![1, 256, 256]⟩
abbrev S16384x1 : Shape := ⟨2, ![16384, 1]⟩
abbrev S16384x5 : Shape := ⟨2, ![16384, 5]⟩
abbrev S16384x5x1 : Shape := ⟨3, ![16384, 5, 1]⟩
abbrev S16384x5x256 : Shape := ⟨3, ![16384, 5, 256]⟩
abbrev S16384x256 : Shape := ⟨2, ![16384, 256]⟩
abbrev S1x256 : Shape := ⟨2, ![1, 256]⟩

abbrev nBuf : Space → Nat
  | .hbm => 118
  | .vmem => 0
  | .smem => 0
  | _ => 0

abbrev bufTy : (tb : Table) → Fin (tcTables nBuf tb) → BufTy
  | .hbm, ⟨0, _⟩ => ⟨S16384, .i32⟩
  | .hbm, ⟨1, _⟩ => ⟨S20000x256, .f32⟩
  | .hbm, ⟨2, _⟩ => ⟨S2x256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S640000, .i32⟩
  | .hbm, ⟨8, _⟩ => ⟨S640000, .i32⟩
  | .hbm, ⟨9, _⟩ => ⟨S640000, .f32⟩
  | .hbm, ⟨10, _⟩ => ⟨S2000x5, .i32⟩
  | .hbm, ⟨11, _⟩ => ⟨S2000x5, .f32⟩
  | .hbm, ⟨12, _⟩ => ⟨S640000x1, .f32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x256, .f32⟩
  | .hbm, ⟨22, _⟩ => ⟨S640000x256, .f32⟩
  | .hbm, ⟨23, _⟩ => ⟨S640000x256, .f32⟩
  | .hbm, ⟨24, _⟩ => ⟨S_, .f32⟩
  | .hbm, ⟨25, _⟩ => ⟨S20000x256, .f32⟩
  | .hbm, ⟨26, _⟩ => ⟨S640000x1, .i32⟩
  | .hbm, ⟨27, _⟩ => ⟨S20000x256, .f32⟩
  | .hbm, ⟨28, _⟩ => ⟨S1x256x256, .f32⟩
  | .hbm, ⟨29, _⟩ => ⟨S256x256, .f32⟩
  | .hbm, ⟨30, _⟩ => ⟨S20000x256, .f32⟩
  | .hbm, ⟨31, _⟩ => ⟨S_, .f32⟩
  | .hbm, ⟨32, _⟩ => ⟨S20000x256, .f32⟩
  | .hbm, ⟨33, _⟩ => ⟨S20000x256, .f32⟩
  | .hbm, ⟨34, _⟩ => ⟨S640000x1, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x256, .f32⟩
  | .hbm, ⟨44, _⟩ => ⟨S640000x256, .f32⟩
  | .hbm, ⟨45, _⟩ => ⟨S640000x256, .f32⟩
  | .hbm, ⟨46, _⟩ => ⟨S_, .f32⟩
  | .hbm, ⟨47, _⟩ => ⟨S20000x256, .f32⟩
  | .hbm, ⟨48, _⟩ => ⟨S640000x1, .i32⟩
  | .hbm, ⟨49, _⟩ => ⟨S20000x256, .f32⟩
  | .hbm, ⟨50, _⟩ => ⟨S1x256x256, .f32⟩
  | .hbm, ⟨51, _⟩ => ⟨S256x256, .f32⟩
  | .hbm, ⟨52, _⟩ => ⟨S20000x256, .f32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S16384x5, .i32⟩
  | .hbm, ⟨62, _⟩ => ⟨S_, .i32⟩
  | .hbm, ⟨63, _⟩ => ⟨S16384, .i32⟩
  | .hbm, ⟨64, _⟩ => ⟨S16384, .i1⟩
  | .hbm, ⟨65, _⟩ => ⟨S_, .i32⟩
  | .hbm, ⟨66, _⟩ => ⟨S16384, .i32⟩
  | .hbm, ⟨67, _⟩ => ⟨S16384, .i32⟩
  | .hbm, ⟨68, _⟩ => ⟨S16384, .i32⟩
  | .hbm, ⟨69, _⟩ => ⟨S16384x1, .i32⟩
  | .hbm, ⟨70, _⟩ => ⟨S16384x5, .f32⟩
  | .hbm, ⟨71, _⟩ => ⟨S_, .i32⟩
  | .hbm, ⟨72, _⟩ => ⟨S16384x5, .i32⟩
  | .hbm, ⟨73, _⟩ => ⟨S16384x5, .i32⟩
  | .hbm, ⟨74, _⟩ => ⟨S_, .i32⟩
  | .hbm, ⟨75, _⟩ => ⟨S16384x5, .i32⟩
  | .hbm, ⟨76, _⟩ => ⟨S16384x5, .i1⟩
  | .hbm, ⟨77, _⟩ => ⟨S_, .i32⟩
  | .hbm, ⟨78, _⟩ => ⟨S16384x5, .i32⟩
  | .hbm, ⟨79, _⟩ => ⟨S16384x5, .i32⟩
  | .hbm, ⟨80, _⟩ => ⟨S16384x5, .i32⟩
  | .hbm, ⟨81, _⟩ => ⟨S16384x5x1, .i32⟩
  | .hbm, ⟨82, _⟩ => ⟨S16384x5x256, .f32⟩
  | .hbm, ⟨83, _⟩ => ⟨S16384x5x1, .f32⟩
  | .hbm, ⟨84, _⟩ => ⟨S16384x5x256, .f32⟩
  | .hbm, ⟨85, _⟩ => ⟨S16384x5x256, .f32⟩
  | .hbm, ⟨86, _⟩ => ⟨S_, .f32⟩
  | .hbm, ⟨87, _⟩ => ⟨S16384x256, .f32⟩
  | .hbm, ⟨88, _⟩ => ⟨S_, .f32⟩
  | .hbm, ⟨89, _⟩ => ⟨S16384, .f32⟩
  | .hbm, ⟨90, _⟩ => ⟨S16384x256, .f32⟩
  | .hbm, ⟨91, _⟩ => ⟨S1x256, .f32⟩
  | .hbm, ⟨92, _⟩ => ⟨S16384x256, .f32⟩
  | .hbm, ⟨93, _⟩ => ⟨S16384x256, .f32⟩
  | .hbm, ⟨94, _⟩ => ⟨S_, .f32⟩
  | .hbm, ⟨95, _⟩ => ⟨S16384x256, .f32⟩
  | .hbm, ⟨96, _⟩ => ⟨S16384x256, .f32⟩
  | .hbm, ⟨97, _⟩ => ⟨S16384x256, .f32⟩
  | .hbm, ⟨98, _⟩ => ⟨S1x256, .f32⟩
  | .hbm, ⟨99, _⟩ => ⟨S16384x256, .f32⟩
  | .hbm, ⟨100, _⟩ => ⟨S16384x256, .f32⟩
  | .hbm, ⟨101, _⟩ => ⟨S_, .f32⟩
  | .hbm, ⟨102, _⟩ => ⟨S16384x256, .f32⟩
  | .hbm, ⟨103, _⟩ => ⟨S16384x256, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .i1⟩
  | .hbm, ⟨108, _⟩ => ⟨S_, .f32⟩
  | .hbm, ⟨109, _⟩ => ⟨S16384x1, .f32⟩
  | .hbm, ⟨110, _⟩ => ⟨S16384x1, .i1⟩
  | .hbm, ⟨111, _⟩ => ⟨S16384x256, .i1⟩
  | .hbm, ⟨112, _⟩ => ⟨S16384x256, .f32⟩
  | .hbm, ⟨113, _⟩ => ⟨S_, .f32⟩
  | .hbm, ⟨114, _⟩ => ⟨S_, .f32⟩
  | .hbm, ⟨115, _⟩ => ⟨S16384x256, .i1⟩
  | .hbm, ⟨116, _⟩ => ⟨S16384x256, .f32⟩
  | .hbm, ⟨117, _⟩ => ⟨S16384x256, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call1_cst : Ref sig .tc := ⟨.hbm, 94, rfl⟩
abbrev main_call1_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call2_cst : Ref sig .tc := ⟨.hbm, 101, rfl⟩
abbrev main_call2_v0 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_call3_v0 : Ref sig .tc := ⟨.hbm, 111, rfl⟩
abbrev main_v76 : Ref sig .tc := ⟨.hbm, 112, rfl⟩
abbrev main_cst_15 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v77 : Ref sig .tc := ⟨.hbm, 117, rfl⟩

abbrev nD : Nat := 1
abbrev τ : Topo := Topo.v7x

variable {F : FTy → Type} [FloatOps F]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x256_0_1 : S640000x1.BroadcastsInDim S640000x256 (![0, 1] : Fin 2 → Fin S640000x256.rank)
  bcast_S_S20000x256 : S_.BroadcastsInDim S20000x256 (![] : Fin 0 → Fin S20000x256.rank)
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  bcast_S_S16384 : S_.BroadcastsInDim S16384 (![] : Fin 0 → Fin S16384.rank)
  bcast_S16384_S16384x1_0 : S16384.BroadcastsInDim S16384x1 (![0] : Fin 1 → Fin S16384x1.rank)
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  bcast_S16384x5x1_S16384x5x256_0_1_2 : S16384x5x1.BroadcastsInDim S16384x5x256 (![0, 1, 2] : Fin 3 → Fin S16384x5x256.rank)
  reducesTo_S16384x5x256_S16384x256_d1 : S16384x5x256.ReducesTo [1] S16384x256
  h_S_ : 0 < S_.numel
  reducesTo_S16384x5_S16384_d1 : S16384x5.ReducesTo [1] S16384
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  dot_S20000x256_S256x256_S20000x256_1_0_0_1_n_n_wf : DotDims.WF S20000x256 S256x256 S20000x256 [1] [0] [0] [1] [] []
  gather_S2000x5_S16384x1_S16384x5_1_0_n_n_0_1_15_wf : GatherDims.WF S2000x5 S16384x1 S16384x5 [1] [0] [] [0] [] 1 ![1, 5]
  gather_S20000x256_S16384x5x1_S16384x5x256_2_0_n_n_0_2_1256_wf : GatherDims.WF S20000x256 S16384x5x1 S16384x5x256 [2] [0] [] [0] [] 2 ![1, 256]
  dot_S16384x256_S256x256_S16384x256_1_0_0_1_n_n_wf : DotDims.WF S16384x256 S256x256 S16384x256 [1] [0] [0] [1] [] []

variable [Facts₀]

def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S2000x5_S16384x1_S16384x5_1_0_n_n_0_1_15 : GatherDims S2000x5 S16384x1 S16384x5 where
  offsetDims := [1]
  collapsedSliceDims := [0]
  operandBatchingDims := []
  startIndicesBatchingDims := []
  startIndexMap := [0]
  indexVectorDim := 1
  sliceSizes := ![1, 5]
  wf := gather_S2000x5_S16384x1_S16384x5_1_0_n_n_0_1_15_wf
def gather_S20000x256_S16384x5x1_S16384x5x256_2_0_n_n_0_2_1256 : GatherDims S20000x256 S16384x5x1 S16384x5x256 where
  offsetDims := [2]
  collapsedSliceDims := [0]
  operandBatchingDims := []
  startIndicesBatchingDims := []
  startIndexMap := [0]
  indexVectorDim := 2
  sliceSizes := ![1, 256]
  wf := gather_S20000x256_S16384x5x1_S16384x5x256_2_0_n_n_0_2_1256_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.KernelRun.lean ====
/-
  The idealized kernel's run with its result named.

  @main is thirteen segments: five stretches of host operations around four dense-layer regions, then the host tail.
  The generated frame walks them with the library's theorem for a list of segments and keeps, of the last thread
  state, only the argument arrays.  Here the same walk keeps one buffer more: the result, which ends at the last
  boundary's contents.
-/
import proofs.«181204_j82789789598114_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the contents of the
    last boundary of the fold through @main, and the argument arrays end as launched. -/
theorem run : θ_run defs (onTc (τ := τ) (main (F := F))) ⟨m, fun _ => 0, ρ⟩ (fun r => ∀ c : Dev nD,
      r.2.mem ((c.tc : Thread nD τ).loc main_v67) = W13 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v67 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Whole

end
-- ==== Proof.Boundaries.lean ====
/-
  The argument arrays at the boundaries between @main's segments.

  No host operation and no region writes an argument array, so at every boundary of the fold through @main an argument's
  buffer still holds what it held at launch: a stretch of host operations leaves a buffer none of them writes as it
  was, and a region leaves every buffer that is not one of its arrays as it was.
-/
import proofs.«181204_j82789789598114_1_alg».proof.Proof.Gen.KernelIdeal.Frame
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer that none of its operations writes as it was: each operation's
    written buffer is another reference, by comparing the references. -/
macro "untouched " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

theorem W1_arg0 (c : Dev nD) : W1 m ρ c (Proc.devRef .tc main_arg0) = m ((c : Thread nD τ).loc main_arg0) := by
  untouched hostOps0
theorem W1_arg2 (c : Dev nD) : W1 m ρ c (Proc.devRef .tc main_arg2) = m ((c : Thread nD τ).loc main_arg2) := by
  untouched hostOps0
theorem W1_arg3 (c : Dev nD) : W1 m ρ c (Proc.devRef .tc main_arg3) = m ((c : Thread nD τ).loc main_arg3) := by
  untouched hostOps0
theorem W1_arg4 (c : Dev nD) : W1 m ρ c (Proc.devRef .tc main_arg4) = m ((c : Thread nD τ).loc main_arg4) := by
  untouched hostOps0
theorem W1_arg5 (c : Dev nD) : W1 m ρ c (Proc.devRef .tc main_arg5) = m ((c : Thread nD τ).loc main_arg5) := by
  untouched hostOps0
theorem W1_arg6 (c : Dev nD) : W1 m ρ c (Proc.devRef .tc main_arg6) = m ((c : Thread nD τ).loc main_arg6) := by
  untouched hostOps0
theorem W1_arg7 (c : Dev nD) : W1 m ρ c (Proc.devRef .tc main_arg7) = m ((c : Thread nD τ).loc main_arg7) := by
  untouched hostOps0
theorem W1_arg8 (c : Dev nD) : W1 m ρ c (Proc.devRef .tc main_arg8) = m ((c : Thread nD τ).loc main_arg8) := by
  untouched hostOps0
theorem W1_arg9 (c : Dev nD) : W1 m ρ c (Proc.devRef .tc main_arg9) = m ((c : Thread nD τ).loc main_arg9) := by
  untouched hostOps0
theorem W1_arg10 (c : Dev nD) : W1 m ρ c (Proc.devRef .tc main_arg10) = m ((c : Thread nD τ).loc main_arg10) := by
  untouched hostOps0
theorem W1_arg11 (c : Dev nD) : W1 m ρ c (Proc.devRef .tc main_arg11) = m ((c : Thread nD τ).loc main_arg11) := by
  untouched hostOps0
theorem W2_arg0 (c : Dev nD) : W2 m ρ c (Proc.devRef .tc main_arg0) = m ((c : Thread nD τ).loc main_arg0) :=
  (W2_of_ne m ρ c main_arg0 (by decide)).trans (W1_arg0 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W3_arg0 (c : Dev nD) : W3 m ρ c (Proc.devRef .tc main_arg0) = m ((c : Thread nD τ).loc main_arg0) :=
  (show StableHlo.after hostOps1 (W2 m ρ c) (Proc.devRef .tc main_arg0) = W2 m ρ c (Proc.devRef .tc main_arg0) by untouched hostOps1).trans (W2_arg0 m ρ c)
theorem W3_arg3 (c : Dev nD) : W3 m ρ c (Proc.devRef .tc main_arg3) = m ((c : Thread nD τ).loc main_arg3) :=
  (show StableHlo.after hostOps1 (W2 m ρ c) (Proc.devRef .tc main_arg3) = W2 m ρ c (Proc.devRef .tc main_arg3) by untouched hostOps1).trans (W2_arg3 m ρ c)
theorem W3_arg4 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) by untouched hostOps1).trans (W2_arg4 m ρ c)
theorem W3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by untouched hostOps1).trans (W2_arg5 m ρ c)
theorem W3_arg6 (c : Dev nD) : W3 m ρ c (Proc.devRef .tc main_arg6) = m ((c : Thread nD τ).loc main_arg6) :=
  (show StableHlo.after hostOps1 (W2 m ρ c) (Proc.devRef .tc main_arg6) = W2 m ρ c (Proc.devRef .tc main_arg6) by untouched hostOps1).trans (W2_arg6 m ρ c)
theorem W3_arg10 (c : Dev nD) : W3 m ρ c (Proc.devRef .tc main_arg10) = m ((c : Thread nD τ).loc main_arg10) :=
  (show StableHlo.after hostOps1 (W2 m ρ c) (Proc.devRef .tc main_arg10) = W2 m ρ c (Proc.devRef .tc main_arg10) by untouched hostOps1).trans (W2_arg10 m ρ c)
theorem W3_arg11 (c : Dev nD) : W3 m ρ c (Proc.devRef .tc main_arg11) = m ((c : Thread nD τ).loc main_arg11) :=
  (show StableHlo.after hostOps1 (W2 m ρ c) (Proc.devRef .tc main_arg11) = W2 m ρ c (Proc.devRef .tc main_arg11) by untouched hostOps1).trans (W2_arg11 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W5_arg0 (c : Dev nD) : W5 m ρ c (Proc.devRef .tc main_arg0) = m ((c : Thread nD τ).loc main_arg0) :=
  (show StableHlo.after hostOps2 (W4 m ρ c) (Proc.devRef .tc main_arg0) = W4 m ρ c (Proc.devRef .tc main_arg0) by untouched hostOps2).trans (W4_arg0 m ρ c)
theorem W5_arg3 (c : Dev nD) : W5 m ρ c (Proc.devRef .tc main_arg3) = m ((c : Thread nD τ).loc main_arg3) :=
  (show StableHlo.after hostOps2 (W4 m ρ c) (Proc.devRef .tc main_arg3) = W4 m ρ c (Proc.devRef .tc main_arg3) by untouched hostOps2).trans (W4_arg3 m ρ c)
theorem W5_arg5 (c : Dev nD) : W5 m ρ c (Proc.devRef .tc main_arg5) = m ((c : Thread nD τ).loc main_arg5) :=
  (show StableHlo.after hostOps2 (W4 m ρ c) (Proc.devRef .tc main_arg5) = W4 m ρ c (Proc.devRef .tc main_arg5) by untouched hostOps2).trans (W4_arg5 m ρ c)
theorem W5_arg6 (c : Dev nD) : W5 m ρ c (Proc.devRef .tc main_arg6) = m ((c : Thread nD τ).loc main_arg6) :=
  (show StableHlo.after hostOps2 (W4 m ρ c) (Proc.devRef .tc main_arg6) = W4 m ρ c (Proc.devRef .tc main_arg6) by untouched hostOps2).trans (W4_arg6 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W7_arg0 (c : Dev nD) : W7 m ρ c (Proc.devRef .tc main_arg0) = m ((c : Thread nD τ).loc main_arg0) :=
  (show StableHlo.after hostOps3 (W6 m ρ c) (Proc.devRef .tc main_arg0) = W6 m ρ c (Proc.devRef .tc main_arg0) by untouched hostOps3).trans (W6_arg0 m ρ c)
theorem W7_arg5 (c : Dev nD) : W7 m ρ c (Proc.devRef .tc main_arg5) = m ((c : Thread nD τ).loc main_arg5) :=
  (show StableHlo.after hostOps3 (W6 m ρ c) (Proc.devRef .tc main_arg5) = W6 m ρ c (Proc.devRef .tc main_arg5) by untouched hostOps3).trans (W6_arg5 m ρ c)
theorem W8_arg0 (c : Dev nD) : W8 m ρ c (Proc.devRef .tc main_arg0) = m ((c : Thread nD τ).loc main_arg0) :=
  (W8_of_ne m ρ c main_arg0 (by decide)).trans (W7_arg0 m ρ c)

end Cert.KernelIdeal.Whole

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibDenseBlock.lean ====
/-
  A dense layer on a block of rows, read at an index on the extended reals.

  A block x [M, K] of rows, a weight w [K, N] and a bias given as a row b [1, N] go to the matrix whose entry (p, f) is
  the sum over d of x (p, d) * w (d, f), plus b (0, f) -- and, with a rectifier, the maximum of that and zero.  A vector
  unit computes it from operands narrowed to bf16 (which changes nothing on the extended reals), a matrix product into a
  zero accumulator, the bias row spread over the rows, and a maximum against a spread scalar zero.  Entry (p, f) reads
  row p of x only: a block of rows of a larger matrix gives the same entries as the larger matrix at those rows.
-/
import Idealize.ShloMosaic.PureOps.Ideal.Laws
import Idealize.ShloMosaic.Lib.ValueIdx
import Idealize.ShloMosaic.Lib.ValueLayout
import Idealize.ShloMosaic.Lib.Pipeline.Value
import proofs.«181204_j82789789598114_1_alg».proof.Proof.LibInnerProducts

noncomputable section

namespace Cert.LibDenseBlock

open Idealize.ShloMosaic Idealize.ShloMosaic.ValueIdx Idealize.ShloMosaic.InnerProducts
open scoped BigOperators

/-- Entry (p, f) is the inner product of row p of x with column f of w, plus the bias row at f. -/
def affine {M K N : ℕ} (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => (∑ d : Fin K, x (ix2 (i 0) d) * w (ix2 d (i 1))) + b (ix2 (0 : Fin 1) (i 1))

/-- The same followed by the rectifier. -/
def affineRelu {M K N : ℕ} (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => max (affine x w b i) (Ideal.ofBits .f32 0x00000000#32)

/-- The layer as a vector unit computes it, without the rectifier. -/
theorem unit_affine {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨2, ![1, N]⟩ .f32)
    (hn : FTy.bf16.bits < FTy.f32.bits) (hb : (⟨2, ![1, N]⟩ : Shape).Broadcasts ⟨2, ![M, N]⟩) :
    addf (matmul D prec (truncf .bf16 x hn) (truncf .bf16 w hn) (constant (F := Ideal) ⟨2, ![M, N]⟩ .f32 0x00000000#32))
        (broadcastTo ⟨2, ![M, N]⟩ b hb)
    = affine x w b := by
  funext i
  obtain ⟨p, f, rfl⟩ : ∃ (p : Fin M) (f : Fin N), i = ix2 p f := ⟨i 0, i 1, eq_ix2 i⟩
  rw [addf_apply, matmul_zero_apply D hD prec (truncf .bf16 x hn) (truncf .bf16 w hn) p f, broadcastTo_1b_ab_apply b hb p f]
  rfl

/-- The layer as a vector unit computes it, with the rectifier. -/
theorem unit_affineRelu {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨2, ![1, N]⟩ .f32)
    (hn : FTy.bf16.bits < FTy.f32.bits) (hb : (⟨2, ![1, N]⟩ : Shape).Broadcasts ⟨2, ![M, N]⟩) :
    maximumf (addf (matmul D prec (truncf .bf16 x hn) (truncf .bf16 w hn) (constant (F := Ideal) ⟨2, ![M, N]⟩ .f32 0x00000000#32))
        (broadcastTo ⟨2, ![M, N]⟩ b hb))
      (broadcast ⟨2, ![M, N]⟩ (Scalar.ofBits (F := Ideal) .f32 0x00000000#32))
    = affineRelu x w b := by
  funext i
  rw [maximumf_apply, unit_affine D hD prec x w b hn hb, broadcast_apply]
  rfl

/-- If row (y 0) of the block xb is row (i 0) of the matrix X, the columns agree, and the weights and bias rows agree
    entry by entry, the layer of the block at y is the layer of the matrix at i. -/
theorem affine_block {M M' K N : ℕ} (X : FVec Ideal ⟨2, ![M, K]⟩ .f32) (xb : FVec Ideal ⟨2, ![M', K]⟩ .f32)
    (w w' : FVec Ideal ⟨2, ![K, N]⟩ .f32) (b b' : FVec Ideal ⟨2, ![1, N]⟩ .f32)
    (y : (⟨2, ![M', N]⟩ : Shape).Idx) (i : (⟨2, ![M, N]⟩ : Shape).Idx) (hcol : (i 1).val = (y 1).val)
    (hx : ∀ d : Fin K, xb (ix2 (y 0) d) = X (ix2 (i 0) d)) (hw : w' = w) (hb : b' = b) :
    affine xb w' b' y = affine X w b i := by
  have e : (i 1 : Fin N) = y 1 := Fin.ext hcol
  subst hw hb
  unfold affine
  rw [e, Finset.sum_congr rfl fun d _ => by rw [hx d]]

theorem affineRelu_block {M M' K N : ℕ} (X : FVec Ideal ⟨2, ![M, K]⟩ .f32) (xb : FVec Ideal ⟨2, ![M', K]⟩ .f32)
    (w w' : FVec Ideal ⟨2, ![K, N]⟩ .f32) (b b' : FVec Ideal ⟨2, ![1, N]⟩ .f32)
    (y : (⟨2, ![M', N]⟩ : Shape).Idx) (i : (⟨2, ![M, N]⟩ : Shape).Idx) (hcol : (i 1).val = (y 1).val)
    (hx : ∀ d : Fin K, xb (ix2 (y 0) d) = X (ix2 (i 0) d)) (hw : w' = w) (hb : b' = b) :
    affineRelu xb w' b' y = affineRelu X w b i := by
  unfold affineRelu
  rw [affine_block X xb w w' b b' y i hcol hx hw hb]

end Cert.LibDenseBlock

end
-- ==== Proof.Regions.lean ====
/-
  The four regions' result arrays, each as one function of the arrays the region finds.

  Each region is a dense layer on blocks of 2000 rows: the body loads a block of rows, the whole weight and the bias
  row, and stores the layer of them.  The rows' window and the result's window walk the row blocks together, the weight's
  and the bias row's windows stay put, so what a point writes back is its block of rows of the layer of the WHOLE
  arrays; the blocks cover the result, and the result array ends at that layer.
-/
import proofs.«181204_j82789789598114_1_alg».proof.Proof.Gen.KernelIdeal.Frame
import proofs.«181204_j82789789598114_1_alg».proof.Proof.LibDenseBlock
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDenseBlock

variable (V : (c : Dev nD) → (b : Ref sig .tc) → Buf (Elt Ideal) ((c : Thread nD τ).loc b))

theorem hz : (![0, 0] : Fin 2 → Nat) = fun _ => 0 := funext fun a => by fin_cases a <;> rfl

/-! ## Region 0: a rectified dense layer over 10 blocks of 2000 rows -/

/-- The body's payload is the rectified dense layer of the blocks it loads. -/
theorem pay0_eq (x : Vec Ideal S2000x256 .f32) (w : Vec Ideal S256x256 .f32) (b : Vec Ideal S1x256 .f32) :
    k0_pay1 (F := Ideal) x w b = affineRelu x w b := by
  unfold k0_pay1
  simp only [shapeCast_self]
  exact unit_affineRelu dot_S2000x256_S256x256_S2000x256_1_0_0_1_n_n rfl none x w b bitsLt_bf16_f32 broadcasts_S1x256_S2000x256

/-- The printed index maps over the grid: the rows' window and the result's move together along axis 0 and stay at
    column block 0; the weight's and the bias row's windows stay at block (0, 0). -/
theorem idx_facts0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block of rows is some point's. -/
theorem idx_onto0 : ∀ q : Fin 10, ∃ t : Fin cfg0.N, win0_3.index t = ![q.val, 0] :=
  (by decide +kernel : ∀ q : Fin 10, ∃ t : Fin grid0.N, win0_3.index t = ![q.val, 0])

/-- What point t writes back is block t of the layer of the whole arrays as the region finds them. -/
theorem flushed0 (c : Dev nD) (t : Fin cfg0.N) :
    (dat0 V c).flushed 3 t = ((cfg0.win 3).blk t).view.read (Elt Ideal) (affineRelu (V c main_v12) (V c main_v14) (V c main_v16)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S1x256) hz]
  rw [pay0_eq]
  obtain ⟨e0, e1, e2, e3, e4, e5, e6⟩ := idx_facts0 t
  funext j
  show affineRelu (iblk0 V c 0 t) (iblk0 V c 1 t) (iblk0 V c 2 t) j
    = affineRelu (V c main_v12) (V c main_v14) (V c main_v16) (((cfg0.win 3).blk t).view.emb j)
  refine affineRelu_block (V c main_v12) (iblk0 V c 0 t) (V c main_v14) (iblk0 V c 1 t) (V c main_v16) (iblk0 V c 2 t) j
    (((cfg0.win 3).blk t).view.emb j) ?_ ?_ ?_ ?_
  · show win0_3.index t (1 : Fin 2) * 256 + 1 * (j 1).val = (j 1).val
    omega
  · intro d
    show V c main_v12 (((cfg0.win 0).blk t).view.emb (ix2 (j 0) d)) = V c main_v12 (ix2 ((((cfg0.win 3).blk t).view.emb j) 0) d)
    refine congrArg (V c main_v12) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * d.val = d.val; omega
  · funext y
    show V c main_v14 (((cfg0.win 1).blk t).view.emb y) = V c main_v14 y
    refine congrArg (V c main_v14) (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · funext y
    show V c main_v16 (((cfg0.win 2).blk t).view.emb y) = V c main_v16 y
    refine congrArg (V c main_v16) (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega

/-- An index of the result array is in point t's block iff each coordinate is in the block's range. -/
theorem mem_blk0 (t : Fin cfg0.N) (i : S20000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v17).slice (win0_3.rect t)).set ↔ _
  rw [View.set_slice_whole, Rect.mem_set_unit]
  exact Iff.rfl

/-- The result array after the region: the layer of the arrays the region found, every row covered by the block of
    its two thousand. -/
theorem arr0 (c : Dev nD) :
    (dat0 V c).arrAt 3 cfg0.N = affineRelu (V c main_v12) (V c main_v14) (V c main_v16) := by
  refine (dat0 V c).arrAt_eq_of_cover 3 _ (fun t _ => flushed0 V c t) fun i => ?_
  have hi0 : (i 0).val < 20000 := (i 0).isLt
  have hi1 : (i 1).val < 256 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-! ## Region 1: a dense layer over 10 blocks of 2000 rows -/

/-- The body's payload is the dense layer of the blocks it loads. -/
theorem pay1_eq (x : Vec Ideal S2000x256 .f32) (w : Vec Ideal S256x256 .f32) (b : Vec Ideal S1x256 .f32) :
    k1_pay1 (F := Ideal) x w b = affine x w b := by
  unfold k1_pay1
  simp only [shapeCast_self]
  exact unit_affine dot_S2000x256_S256x256_S2000x256_1_0_0_1_n_n rfl none x w b bitsLt_bf16_f32 broadcasts_S1x256_S2000x256

/-- The printed index maps over the grid: the rows' window and the result's move together along axis 0 and stay at
    column block 0; the weight's and the bias row's windows stay at block (0, 0). -/
theorem idx_facts1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every block of rows is some point's. -/
theorem idx_onto1 : ∀ q : Fin 10, ∃ t : Fin cfg1.N, win1_3.index t = ![q.val, 0] :=
  (by decide +kernel : ∀ q : Fin 10, ∃ t : Fin grid1.N, win1_3.index t = ![q.val, 0])

/-- What point t writes back is block t of the layer of the whole arrays as the region finds them. -/
theorem flushed1 (c : Dev nD) (t : Fin cfg1.N) :
    (dat1 V c).flushed 3 t = ((cfg1.win 3).blk t).view.read (Elt Ideal) (affine (V c main_v30) (V c main_v32) (V c main_v34)) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S1x256) hz]
  rw [pay1_eq]
  obtain ⟨e0, e1, e2, e3, e4, e5, e6⟩ := idx_facts1 t
  funext j
  show affine (iblk1 V c 0 t) (iblk1 V c 1 t) (iblk1 V c 2 t) j
    = affine (V c main_v30) (V c main_v32) (V c main_v34) (((cfg1.win 3).blk t).view.emb j)
  refine affine_block (V c main_v30) (iblk1 V c 0 t) (V c main_v32) (iblk1 V c 1 t) (V c main_v34) (iblk1 V c 2 t) j
    (((cfg1.win 3).blk t).view.emb j) ?_ ?_ ?_ ?_
  · show win1_3.index t (1 : Fin 2) * 256 + 1 * (j 1).val = (j 1).val
    omega
  · intro d
    show V c main_v30 (((cfg1.win 0).blk t).view.emb (ix2 (j 0) d)) = V c main_v30 (ix2 ((((cfg1.win 3).blk t).view.emb j) 0) d)
    refine congrArg (V c main_v30) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 256 + 1 * d.val = d.val; omega
  · funext y
    show V c main_v32 (((cfg1.win 1).blk t).view.emb y) = V c main_v32 y
    refine congrArg (V c main_v32) (funext fun a => Fin.ext ?_)
    match a with
    | ⟨0, _⟩ => show win1_1.index t (0 : Fin 2) * 256 + 1 * (y 0).val = (y 0).val; omega
    | ⟨1, _⟩ => show win1_1.index t (1 : Fin 2) * 256 + 1 * (y 1).val = (y 1).val; omega
  · funext y
    show V c main_v34 (((cfg1.win 2).blk t).view.emb y) = V c main_v34 y
    refine congrArg (V c main_v34) (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega

/-- An index of the result array is in point t's block iff each coordinate is in the block's range. -/
theorem mem_blk1 (t : Fin cfg1.N) (i : S20000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v35).slice (win1_3.rect t)).set ↔ _
  rw [View.set_slice_whole, Rect.mem_set_unit]
  exact Iff.rfl

/-- The result array after the region: the layer of the arrays the region found, every row covered by the block of
    its two thousand. -/
theorem arr1 (c : Dev nD) :
    (dat1 V c).arrAt 3 cfg1.N = affine (V c main_v30) (V c main_v32) (V c main_v34) := by
  refine (dat1 V c).arrAt_eq_of_cover 3 _ (fun t _ => flushed1 V c t) fun i => ?_
  have hi0 : (i 0).val < 20000 := (i 0).isLt
  have hi1 : (i 1).val < 256 := (i 1).isLt
  obtain ⟨t, ht⟩ := idx_onto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-! ## Region 2: a rectified dense layer over 1 block of 2000 rows -/

/-- The body's payload is the rectified dense layer of the blocks it loads. -/
theorem pay2_eq (x : Vec Ideal S2000x256 .f32) (w : Vec Ideal S256x256 .f32) (b : Vec Ideal S1x256 .f32) :
    k2_pay1 (F := Ideal) x w b = affineRelu x w b := by
  unfold k2_pay1
  simp only [shapeCast_self]
  exact unit_affineRelu dot_S2000x256_S256x256_S2000x256_1_0_0_1_n_n rfl none x w b bitsLt_bf16_f32 broadcasts_S1x256_S2000x256

/-- The printed index maps over the grid: the rows' window and the result's move together along axis 0 and stay at
    column block 0; the weight's and the bias row's windows stay at block (0, 0). -/
theorem idx_facts2 : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Every block of rows is some point's. -/
theorem idx_onto2 : ∀ q : Fin 1, ∃ t : Fin cfg2.N, win2_3.index t = ![q.val, 0] :=
  (by decide +kernel : ∀ q : Fin 1, ∃ t : Fin grid2.N, win2_3.index t = ![q.val, 0])

/-- What point t writes back is block t of the layer of the whole arrays as the region finds them. -/
theorem flushed2 (c : Dev nD) (t : Fin cfg2.N) :
    (dat2 V c).flushed 3 t = ((cfg2.win 3).blk t).view.read (Elt Ideal) (affineRelu (V c main_v48) (V c main_arg3) (V c main_v50)) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x256) hz, View.ld_unit_zero (S := S1x256) hz]
  rw [pay2_eq]
  obtain ⟨e0, e1, e2, e3, e4, e5, e6⟩ := idx_facts2 t
  funext j
  show affineRelu (iblk2 V c 0 t) (iblk2 V c 1 t) (iblk2 V c 2 t) j
    = affineRelu (V c main_v48) (V c main_arg3) (V c main_v50) (((cfg2.win 3).blk t).view.emb j)
  refine affineRelu_block (V c main_v48) (iblk2 V c 0 t) (V c main_arg3) (iblk2 V c 1 t) (V c main_v50) (iblk2 V c 2 t) j
    (((cfg2.win 3).blk t).view.emb j) ?_ ?_ ?_ ?_
  · show win2_3.index t (1 : Fin 2) * 256 + 1 * (j 1).val = (j 1).val
    omega
  · intro d
    show V c main_v48 (((cfg2.win 0).blk t).view.emb (ix2 (j 0) d)) = V c main_v48 (ix2 ((((cfg2.win 3).blk t).view.emb j) 0) d)
    refine congrArg (V c main_v48) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 256 + 1 * d.val = d.val; omega
  · funext y
    show V c main_arg3 (((cfg2.win 1).blk t).view.emb y) = V c main_arg3 y
    refine congrArg (V c main_arg3) (funext fun a => Fin.ext ?_)
    match a with
    | ⟨0, _⟩ => show win2_1.index t (0 : Fin 2) * 256 + 1 * (y 0).val = (y 0).val; omega
    | ⟨1, _⟩ => show win2_1.index t (1 : Fin 2) * 256 + 1 * (y 1).val = (y 1).val; omega
  · funext y
    show V c main_v50 (((cfg2.win 2).blk t).view.emb y) = V c main_v50 y
    refine congrArg (V c main_v50) (funext fun a => Fin.ext ?_)
    match a with
    | ⟨0, _⟩ => show win2_2.index t (0 : Fin 2) * 1 + 1 * (y 0).val = (y 0).val; omega
    | ⟨1, _⟩ => show win2_2.index t (1 : Fin 2) * 256 + 1 * (y 1).val = (y 1).val; omega

/-- An index of the result array is in point t's block iff each coordinate is in the block's range. -/
theorem mem_blk2 (t : Fin cfg2.N) (i : S2000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v51).slice (win2_3.rect t)).set ↔ _
  rw [View.set_slice_whole, Rect.mem_set_unit]
  exact Iff.rfl

/-- The result array after the region: the layer of the arrays the region found, every row covered by the block of
    its two thousand. -/
theorem arr2 (c : Dev nD) :
    (dat2 V c).arrAt 3 cfg2.N = affineRelu (V c main_v48) (V c main_arg3) (V c main_v50) := by
  refine (dat2 V c).arrAt_eq_of_cover 3 _ (fun t _ => flushed2 V c t) fun i => ?_
  have hi0 : (i 0).val < 2000 := (i 0).isLt
  have hi1 : (i 1).val < 256 := (i 1).isLt
  obtain ⟨t, ht⟩ := idx_onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-! ## Region 3: a rectified dense layer over 1 block of 2000 rows -/

/-- The body's payload is the rectified dense layer of the blocks it loads. -/
theorem pay3_eq (x : Vec Ideal S2000x256 .f32) (w : Vec Ideal S256x256 .f32) (b : Vec Ideal S1x256 .f32) :
    k3_pay1 (F := Ideal) x w b = affineRelu x w b := by
  unfold k3_pay1
  simp only [shapeCast_self]
  exact unit_affineRelu dot_S2000x256_S256x256_S2000x256_1_0_0_1_n_n rfl none x w b bitsLt_bf16_f32 broadcasts_S1x256_S2000x256

/-- The printed index maps over the grid: the rows' window and the result's move together along axis 0 and stay at
    column block 0; the weight's and the bias row's windows stay at block (0, 0). -/
theorem idx_facts3 : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- Every block of rows is some point's. -/
theorem idx_onto3 : ∀ q : Fin 1, ∃ t : Fin cfg3.N, win3_3.index t = ![q.val, 0] :=
  (by decide +kernel : ∀ q : Fin 1, ∃ t : Fin grid3.N, win3_3.index t = ![q.val, 0])

/-- What point t writes back is block t of the layer of the whole arrays as the region finds them. -/
theorem flushed3 (c : Dev nD) (t : Fin cfg3.N) :
    (dat3 V c).flushed 3 t = ((cfg3.win 3).blk t).view.read (Elt Ideal) (affineRelu (V c main_v51) (V c main_arg5) (V c main_v52)) := by
  show (cfg3.win 3).cut (grid3.coords t) ((dat3 V c).after 3 t) = _
  rw [after3_3]
  unfold out3_3
  rw [View.canon_unit_zero hz]
  simp only [View.ld_unit_zero (S := S2000x256) hz, View.ld_unit_zero (S := S256x256) hz, View.ld_unit_zero (S := S1x256) hz]
  rw [pay3_eq]
  obtain ⟨e0, e1, e2, e3, e4, e5, e6⟩ := idx_facts3 t
  funext j
  show affineRelu (iblk3 V c 0 t) (iblk3 V c 1 t) (iblk3 V c 2 t) j
    = affineRelu (V c main_v51) (V c main_arg5) (V c main_v52) (((cfg3.win 3).blk t).view.emb j)
  refine affineRelu_block (V c main_v51) (iblk3 V c 0 t) (V c main_arg5) (iblk3 V c 1 t) (V c main_v52) (iblk3 V c 2 t) j
    (((cfg3.win 3).blk t).view.emb j) ?_ ?_ ?_ ?_
  · show win3_3.index t (1 : Fin 2) * 256 + 1 * (j 1).val = (j 1).val
    omega
  · intro d
    show V c main_v51 (((cfg3.win 0).blk t).view.emb (ix2 (j 0) d)) = V c main_v51 (ix2 ((((cfg3.win 3).blk t).view.emb j) 0) d)
    refine congrArg (V c main_v51) (funext fun a => Fin.ext ?_)
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 256 + 1 * d.val = d.val; omega
  · funext y
    show V c main_arg5 (((cfg3.win 1).blk t).view.emb y) = V c main_arg5 y
    refine congrArg (V c main_arg5) (funext fun a => Fin.ext ?_)
    match a with
    | ⟨0, _⟩ => show win3_1.index t (0 : Fin 2) * 256 + 1 * (y 0).val = (y 0).val; omega
    | ⟨1, _⟩ => show win3_1.index t (1 : Fin 2) * 256 + 1 * (y 1).val = (y 1).val; omega
  · funext y
    show V c main_v52 (((cfg3.win 2).blk t).view.emb y) = V c main_v52 y
    refine congrArg (V c main_v52) (funext fun a => Fin.ext ?_)
    match a with
    | ⟨0, _⟩ => show win3_2.index t (0 : Fin 2) * 1 + 1 * (y 0).val = (y 0).val; omega
    | ⟨1, _⟩ => show win3_2.index t (1 : Fin 2) * 256 + 1 * (y 1).val = (y 1).val; omega

/-- An index of the result array is in point t's block iff each coordinate is in the block's range. -/
theorem mem_blk3 (t : Fin cfg3.N) (i : S2000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v53).slice (win3_3.rect t)).set ↔ _
  rw [View.set_slice_whole, Rect.mem_set_unit]
  exact Iff.rfl

/-- The result array after the region: the layer of the arrays the region found, every row covered by the block of
    its two thousand. -/
theorem arr3 (c : Dev nD) :
    (dat3 V c).arrAt 3 cfg3.N = affineRelu (V c main_v51) (V c main_arg5) (V c main_v52) := by
  refine (dat3 V c).arrAt_eq_of_cover 3 _ (fun t _ => flushed3 V c t) fun i => ?_
  have hi0 : (i 0).val < 2000 := (i 0).isLt
  have hi1 : (i 1).val < 256 := (i 1).isLt
  obtain ⟨t, ht⟩ := idx_onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

end Cert.KernelIdeal.Whole

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibSegmentDims.lean ====
/-
  The dimension numbers of the two indexed host operations a segment sum is lowered to, for any extents.

  A row gather takes an [N, C] array and an [E, 1] array of row indices and returns the [E, C] array of the rows named;
  an accumulating row scatter adds the rows of an [E, C] array into an [N, C] array at the rows named. The same two
  operations on a vector of length N (one entry per index instead of a row) read and add single entries. Each record
  here is the literal list of axes the host operation carries, with the side conditions on the shapes a parameter.
-/
import Idealize.ShloMosaic.PureOps.Dims

namespace Cert.SegmentDims

open Idealize.ShloMosaic

/-- Rows of an [N, C] array gathered at [E, 1] indices into [E, C]: axis 0 is indexed and collapsed, axis 1 is the row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of a vector [N] gathered at [E, 1] indices into [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows of an [E, C] array added into an [N, C] array at [E, 1] row indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Entries of a vector [E] added into a vector [N] at [E, 1] indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

end Cert.SegmentDims
-- ==== Proof.LibIndexedRows.lean ====
/-
  The host's row gather and accumulating row scatter, read at an index, for any extents and any index width.
  A gather of rows of an [N, C] table (or of entries of an [N] vector) at an [E, 1] array of start indices reads the
  row whose number is the start index taken signed and clamped into [0, N - 1].  An accumulating scatter of the rows
  of an [E, C] array (or the entries of an [E] vector) into an [N, C] table (an [N] vector) adds, at row i, exactly the
  update rows whose index, taken signed and not clamped, equals i; indices outside [0, N) contribute nothing.
-/
import Idealize.ShloMosaic.PureOps.Ideal
import Idealize.ShloMosaic.PureOps.Ideal.Laws
import Idealize.ShloMosaic.Lib.ValueIdx
import Idealize.ShloMosaic.Lib.Pipeline.Value
import proofs.«181204_j82789789598114_1_alg».proof.Proof.LibSegmentDims

noncomputable section

open scoped BigOperators

namespace Cert.LibIndexedRows

open Idealize.ShloMosaic Idealize.ShloMosaic.ValueIdx Cert.SegmentDims

/-! ## Where an update lands -/

/-- An update index lands on operand index `i` exactly when, on every operand axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hg a
      have h1 := congrArg Fin.val (congrFun hg a)
      have h2 := h a
      simp only at h1
      omega
    · intro hg
      funext a
      refine Fin.ext ?_
      have h1 := hg a
      have h2 := h a
      simp only
      omega
  · rename_i h
    constructor
    · intro hn; exact absurd hn (by simp)
    · intro hg
      exfalso
      apply h
      intro a
      have h1 := hg a
      have h2 := (i a).isLt
      omega

/-! ## Rows of a table: scatter -/

section RowScatter
variable {N E C w : Nat} (wf : ScatterDims.WF ⟨2, ![N, C]⟩ ⟨2, ![E, 1]⟩ ⟨2, ![E, C]⟩ [1] [0] [0] 1)

/-- On the row axis the start is the update row's index, read signed. -/
theorem rowScatter_start0 (idx : IVec ⟨2, ![E, 1]⟩ w) (e : Fin E) (f' : Fin C) :
    (rowScatterDims N E C wf).start (ix2 e f') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e f') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the start is zero. -/
theorem rowScatter_start1 (idx : IVec ⟨2, ![E, 1]⟩ w) (j : (⟨2, ![E, C]⟩ : Shape).Idx) :
    (rowScatterDims N E C wf).start j idx 1 = 0 := by
  unfold ScatterDims.start
  have hk : (1 : Fin 2) ∉ (rowScatterDims N E C wf).scatterDimsToOperandDims :=
    (by decide : (1 : Fin 2) ∉ ([0] : List (Fin 2)))
  rw [dif_neg hk]

/-- On the row axis the window coordinate is zero. -/
theorem rowScatter_window0 (j : (⟨2, ![E, C]⟩ : Shape).Idx) : (rowScatterDims N E C wf).window j 0 = 0 := by
  unfold ScatterDims.window
  have hk : (0 : Fin 2) ∉ (rowScatterDims N E C wf).sKept :=
    (by decide : (0 : Fin 2) ∉ (List.finRange 2).filter (· ∉ ([0] : List (Fin 2))))
  rw [dif_neg hk]

/-- On the column axis the window coordinate is the update's column. -/
theorem rowScatter_window1 (e : Fin E) (f' : Fin C) : (rowScatterDims N E C wf).window (ix2 e f') 1 = f'.val := by
  unfold ScatterDims.window
  have hk : (1 : Fin 2) ∈ (rowScatterDims N E C wf).sKept :=
    (by decide : (1 : Fin 2) ∈ (List.finRange 2).filter (· ∉ ([0] : List (Fin 2))))
  rw [dif_pos hk]
  rfl

/-- Update `(e, f')` lands on `(i, f)` exactly when its row index, read signed, is `i` and its column is `f`. -/
theorem rowScatter_resultIdx?_iff (idx : IVec ⟨2, ![E, 1]⟩ w) (e : Fin E) (f' : Fin C) (i : Fin N) (f : Fin C) :
    (rowScatterDims N E C wf).resultIdx? (ix2 e f') idx = some (ix2 i f) ↔
      (idx (ix2 e (0 : Fin 1))).toInt = (i.val : ℤ) ∧ f' = f := by
  rw [resultIdx?_eq_some_iff]
  constructor
  · intro h
    have h0 := h 0
    have h1 := h 1
    rw [rowScatter_start0, rowScatter_window0] at h0
    rw [rowScatter_start1, rowScatter_window1] at h1
    refine ⟨?_, Fin.ext ?_⟩
    · simp only [Nat.cast_zero, add_zero] at h0
      exact h0
    · simp only [zero_add, Nat.cast_inj] at h1
      exact h1
  · rintro ⟨ht, rfl⟩ a
    match a with
    | ⟨0, _⟩ =>
      show (rowScatterDims N E C wf).start (ix2 e f') idx 0 + ((rowScatterDims N E C wf).window (ix2 e f') 0 : ℤ) = _
      rw [rowScatter_start0, rowScatter_window0, ht]; simp
    | ⟨1, _⟩ =>
      show (rowScatterDims N E C wf).start (ix2 e f') idx 1 + ((rowScatterDims N E C wf).window (ix2 e f') 1 : ℤ) = _
      rw [rowScatter_start1, rowScatter_window1]; simp

/-- THE ROW SCATTER READ AT `(i, f)`: the table's entry plus the entries in column `f` of the update rows whose index,
    read signed and not clamped, is `i`. -/
theorem scatterAdd_rows_apply (x : FVec Ideal ⟨2, ![N, C]⟩ .f32) (idx : IVec ⟨2, ![E, 1]⟩ w)
    (upd : FVec Ideal ⟨2, ![E, C]⟩ .f32) (i : Fin N) (f : Fin C) :
    Host.scatterAdd (F := Ideal) (rowScatterDims N E C wf) x idx upd (ix2 i f) =
      x (ix2 i f) + ∑ e : Fin E, if (idx (ix2 e (0 : Fin 1))).toInt = (i.val : ℤ) then upd (ix2 e f) else 0 := by
  show x (ix2 i f) + ∑ j ∈ Finset.univ.filter
      (fun j => (rowScatterDims N E C wf).resultIdx? j idx = some (ix2 i f)), upd j = _
  congr 1
  rw [Finset.sum_filter, sum_idx2]
  refine Finset.sum_congr rfl fun e _ => ?_
  simp only [rowScatter_resultIdx?_iff]
  by_cases ht : (idx (ix2 e (0 : Fin 1))).toInt = (i.val : ℤ)
  · simp only [ht, true_and, if_true]
    exact Finset.sum_ite_eq' Finset.univ f (fun f' => upd (ix2 e f')) |>.trans (if_pos (Finset.mem_univ f))
  · simp only [ht, false_and, if_false, Finset.sum_const_zero]

end RowScatter

/-! ## Entries of a vector: scatter -/

/-- A rank-1 index set is its one coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (g : (⟨1, ![n]⟩ : Shape).Idx → M) :
    ∑ j, g j = ∑ a : Fin n, g (ix1 a) := by
  rw [← Equiv.sum_comp (idxEquiv1 (n := n)).symm g]
  rfl

section VecScatter
variable {N E w : Nat} (wf : ScatterDims.WF ⟨1, ![N]⟩ ⟨2, ![E, 1]⟩ ⟨1, ![E]⟩ [] [0] [0] 1)

/-- The start is the update entry's index, read signed. -/
theorem vecScatter_start0 (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window: the window coordinate is zero. -/
theorem vecScatter_window0 (j : (⟨1, ![E]⟩ : Shape).Idx) : (vecScatterDims N E wf).window j 0 = 0 := by
  unfold ScatterDims.window
  have hk : (0 : Fin 1) ∉ (vecScatterDims N E wf).sKept :=
    (by decide : (0 : Fin 1) ∉ (List.finRange 1).filter (· ∉ ([0] : List (Fin 1))))
  rw [dif_neg hk]

/-- Update `e` lands on `i` exactly when its index, read signed, is `i`. -/
theorem vecScatter_resultIdx?_iff (idx : IVec ⟨2, ![E, 1]⟩ w) (e : Fin E) (i : Fin N) :
    (vecScatterDims N E wf).resultIdx? (ix1 e) idx = some (ix1 i) ↔ (idx (ix2 e (0 : Fin 1))).toInt = (i.val : ℤ) := by
  rw [resultIdx?_eq_some_iff]
  constructor
  · intro h
    have h0 := h 0
    rw [vecScatter_start0, vecScatter_window0, Nat.cast_zero, add_zero] at h0
    exact h0
  · intro ht a
    obtain rfl : a = 0 := Subsingleton.elim _ _
    show (vecScatterDims N E wf).start (ix1 e) idx 0 + ((vecScatterDims N E wf).window (ix1 e) 0 : ℤ) = (i.val : ℤ)
    rw [vecScatter_start0, vecScatter_window0, ht, Nat.cast_zero, add_zero]

/-- THE VECTOR SCATTER READ AT `i`: the vector's entry plus the update entries whose index, read signed and not
    clamped, is `i`. -/
theorem scatterAdd_vec_apply (x : FVec Ideal ⟨1, ![N]⟩ .f32) (idx : IVec ⟨2, ![E, 1]⟩ w)
    (upd : FVec Ideal ⟨1, ![E]⟩ .f32) (i : Fin N) :
    Host.scatterAdd (F := Ideal) (vecScatterDims N E wf) x idx upd (ix1 i) =
      x (ix1 i) + ∑ e : Fin E, if (idx (ix2 e (0 : Fin 1))).toInt = (i.val : ℤ) then upd (ix1 e) else 0 := by
  show x (ix1 i) + ∑ j ∈ Finset.univ.filter
      (fun j => (vecScatterDims N E wf).resultIdx? j idx = some (ix1 i)), upd j = _
  congr 1
  rw [Finset.sum_filter, sum_idx1]
  refine Finset.sum_congr rfl fun e _ => ?_
  simp only [vecScatter_resultIdx?_iff]

end VecScatter

/-! ## Rows of a table: gather -/

section RowGather
variable {α : Type} {N E C w : Nat}

/-- THE ROW GATHER READ AT `(e, f)`: column `f` of the row whose number is the start index `idx[e, 0]`, read signed and
    clamped into `[0, N - 1]`. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f) =
      x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N E C wf).start (ix2 e f) idx 0 + (rowGatherDims N E C wf).batchCoord (ix2 e f) 0 +
      (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e f) idx 1 + (rowGatherDims N E C wf).batchCoord (ix2 e f) 1 +
      (rowGatherDims N E C wf).offCoord (ix2 e f) 1 = f.val
    rw [GatherDims.batchCoord_eq_zero _ _ _ List.not_mem_nil]
    have hs : (rowGatherDims N E C wf).start (ix2 e f) idx 1 = 0 := by
      unfold GatherDims.start
      have hk : (1 : Fin 2) ∉ (rowGatherDims N E C wf).startIndexMap :=
        (by decide : (1 : Fin 2) ∉ ([0] : List (Fin 2)))
      rw [dif_neg hk]
    have ho : (rowGatherDims N E C wf).offCoord (ix2 e f) 1 = f.val := by
      unfold GatherDims.offCoord
      have hk : (1 : Fin 2) ∈ (rowGatherDims N E C wf).sKept :=
        (by decide : (1 : Fin 2) ∈ (List.finRange 2).filter (· ∉ (([0] : List (Fin 2)) ++ [])))
      rw [dif_pos hk]
      rfl
    rw [hs, ho]
    simp only [Nat.zero_add]

end RowGather

/-! ## Entries of a vector: gather -/

section VecGather
variable {α : Type} {N E w : Nat}

/-- THE VECTOR GATHER READ AT `e`: the entry at the start index `idx[e, 0]`, read signed and clamped into
    `[0, N - 1]`. -/
theorem gather_vec_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) =
      x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0 +
    (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

end Cert.LibIndexedRows

end
-- ==== Proof.LibPooledRows.lean ====
/-
  Rows pooled from a table, counted and selected: the host's array operations read at an index, for any extents.

  A table E [N, C] of rows, an array of row numbers [M, G] (G numbers per row of the result) and a mask [M, G] of
  weights give the pooled matrix [M, C]: entry (r, f) is zero plus the sum over k of E (row number (r, k), f) * mask (r, k),
  the row number being read signed and clamped into [0, N - 1].  The host lowers it as a gather of [M, G, C] planes, two
  broadcasts of the mask, a product and a sum along the middle axis.  The count [M] is the sum of the mask along its rows.
  The selection reads, at (r, f), one of zero, the pooled entry or a third matrix's entry according to whether the count
  of row r is zero or one.  Every entry (r, f) of these arrays reads row r of the row numbers and of the mask only, so
  gathering rows of the row numbers and of the mask first, or gathering rows of the result afterwards, is the same.
-/
import Idealize.ShloMosaic.PureOps.Ideal
import Idealize.ShloMosaic.PureOps.Ideal.Laws
import Idealize.ShloMosaic.Lib.ValueIdx
import Idealize.ShloMosaic.Lib.Pipeline.Value
import proofs.«181204_j82789789598114_1_alg».proof.Proof.LibInDimLayout
import proofs.«181204_j82789789598114_1_alg».proof.Proof.LibIndexedRows

noncomputable section

open scoped BigOperators

namespace Cert.LibPooledRows

open Idealize.ShloMosaic Idealize.ShloMosaic.ValueIdx Cert.LibInDimLayout

/-! ## Planes of rows gathered from a table -/

/-- Rows of an [N, C] table gathered at [M, G, 1] row numbers into [M, G, C]: axis 0 is indexed and collapsed, the
    row is the last axis of the result. -/
abbrev planeGatherDims (N M G C : Nat)
    (wf : GatherDims.WF ⟨2, ![N, C]⟩ ⟨3, ![M, G, 1]⟩ ⟨3, ![M, G, C]⟩ [2] [0] [] [0] [] 2 ![1, C]) :
    GatherDims ⟨2, ![N, C]⟩ ⟨3, ![M, G, 1]⟩ ⟨3, ![M, G, C]⟩ where
  offsetDims := [2]
  collapsedSliceDims := [0]
  operandBatchingDims := []
  startIndicesBatchingDims := []
  startIndexMap := [0]
  indexVectorDim := 2
  sliceSizes := ![1, C]
  wf := wf

/-- A row number read signed and clamped into [0, N - 1]. -/
def clampRow (N : Nat) (hN : 0 < N) {w : Nat} (x : BitVec w) : Fin N := ⟨min x.toInt.toNat (N - 1), by omega⟩

section PlaneGather
variable {α : Type} {N M G C w : Nat}

/-- The gather of planes read at (r, k, f): column f of the table's row whose number is the index at (r, k, 0). -/
theorem gather_planes_apply (hN : 0 < N)
    (wf : GatherDims.WF ⟨2, ![N, C]⟩ ⟨3, ![M, G, 1]⟩ ⟨3, ![M, G, C]⟩ [2] [0] [] [0] [] 2 ![1, C])
    (x : (⟨2, ![N, C]⟩ : Shape).Idx → α) (idx : IVec ⟨3, ![M, G, 1]⟩ w) (r : Fin M) (k : Fin G) (f : Fin C) :
    Host.gather (planeGatherDims N M G C wf) x idx (ix3 r k f) =
      x (ix2 (clampRow N hN (idx (ix3 r k (0 : Fin 1)))) f) := by
  unfold Host.gather
  congr 1
  funext a
  refine Fin.ext ?_
  match a with
  | ⟨0, _⟩ =>
    show (planeGatherDims N M G C wf).start (ix3 r k f) idx 0 + (planeGatherDims N M G C wf).batchCoord (ix3 r k f) 0 +
      (planeGatherDims N M G C wf).offCoord (ix3 r k f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (planeGatherDims N M G C wf).startIndexMap from List.mem_singleton.mpr rfl)]
    have hsi : (planeGatherDims N M G C wf).siIdx (ix3 r k f) ⟨List.idxOf (0 : Fin 2) (planeGatherDims N M G C wf).startIndexMap,
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi]
    rfl
  | ⟨1, _⟩ =>
    show (planeGatherDims N M G C wf).start (ix3 r k f) idx 1 + (planeGatherDims N M G C wf).batchCoord (ix3 r k f) 1 +
      (planeGatherDims N M G C wf).offCoord (ix3 r k f) 1 = f.val
    rw [GatherDims.batchCoord_eq_zero _ _ _ List.not_mem_nil]
    have hs : (planeGatherDims N M G C wf).start (ix3 r k f) idx 1 = 0 := by
      unfold GatherDims.start
      have hk : (1 : Fin 2) ∉ (planeGatherDims N M G C wf).startIndexMap :=
        (by decide : (1 : Fin 2) ∉ ([0] : List (Fin 2)))
      rw [dif_neg hk]
    have ho : (planeGatherDims N M G C wf).offCoord (ix3 r k f) 1 = f.val := by
      unfold GatherDims.offCoord
      have hk : (1 : Fin 2) ∈ (planeGatherDims N M G C wf).sKept :=
        (by decide : (1 : Fin 2) ∈ (List.finRange 2).filter (· ∉ (([0] : List (Fin 2)) ++ [])))
      rw [dif_pos hk]
      rfl
    rw [hs, ho]
    simp only [Nat.zero_add]

end PlaneGather

/-! ## The pooled matrix, the count and the selection, as functions of rows -/

/-- A row number as the host prepares it: the maximum with zero, then the table's extent added if negative. -/
def wrapIdx (ext : BitVec 32) (x : BitVec 32) : BitVec 32 :=
  Scalar.select (IntOp.cmpi .slt (IntOp.maxsi x 0#32) 0#32) (IntOp.addi (IntOp.maxsi x 0#32) ext) (IntOp.maxsi x 0#32)

/-- The pooled matrix: zero plus the sum over k of the table's row numbered by (r, k), at f, times the mask at (r, k). -/
def pooled {N M G C : Nat} (hN : 0 < N) (ext : BitVec 32) (E : FVec Ideal ⟨2, ![N, C]⟩ .f32) (cgi : IVec ⟨2, ![M, G]⟩ 32)
    (mask : FVec Ideal ⟨2, ![M, G]⟩ .f32) : FVec Ideal ⟨2, ![M, C]⟩ .f32 :=
  fun i => Ideal.ofBits .f32 0x00000000#32
    + ∑ k : Fin G, E (ix2 (clampRow N hN (wrapIdx ext (cgi (ix2 (i 0) k)))) (i 1)) * mask (ix2 (i 0) k)

/-- The count: zero plus the sum of the mask along row r. -/
def count {M G : Nat} (mask : FVec Ideal ⟨2, ![M, G]⟩ .f32) : FVec Ideal ⟨1, ![M]⟩ .f32 :=
  fun i => Ideal.ofBits .f32 0x00000000#32 + ∑ k : Fin G, mask (ix2 (i 0) k)

/-- The selection on one entry: zero when the count is zero, the pooled entry when it is one, else the third. -/
def pick (n s o : EReal) : EReal :=
  Scalar.select (FloatOps.cmpf (F := Ideal) (φ := .f32) .oeq n (Ideal.ofBits .f32 0x00000000#32)) (Ideal.ofBits .f32 0x00000000#32)
    (Scalar.select (FloatOps.cmpf (F := Ideal) (φ := .f32) .oeq n (Ideal.ofBits .f32 0x3F800000#32)) s o)

/-- The selection on matrices, row r by the count of row r. -/
def picked {M C : Nat} (n : FVec Ideal ⟨1, ![M]⟩ .f32) (s o : FVec Ideal ⟨2, ![M, C]⟩ .f32) : FVec Ideal ⟨2, ![M, C]⟩ .f32 :=
  fun i => pick (n (ix1 (i 0))) (s i) (o i)

section HostForms
variable {N M G C : Nat}

/-- The row numbers as the host prepares and lays them out for the gather, read at (r, k, 0). -/
theorem host_rownums_apply (ext : BitVec 32) (cgi : IVec ⟨2, ![M, G]⟩ 32)
    (hb0 : (⟨0, ![]⟩ : Shape).BroadcastsInDim ⟨2, ![M, G]⟩ ![])
    (hb1 : (⟨2, ![M, G]⟩ : Shape).BroadcastsInDim ⟨3, ![M, G, 1]⟩ ![0, 1]) (r : Fin M) (k : Fin G) (u : Fin 1) :
    broadcastInDim ⟨3, ![M, G, 1]⟩ ![0, 1] hb1
      (select (cmpi .slt (maxsi cgi (broadcastInDim ⟨2, ![M, G]⟩ ![] hb0 (constantI ⟨0, ![]⟩ 32 0#32)))
          (broadcastInDim ⟨2, ![M, G]⟩ ![] hb0 (constantI ⟨0, ![]⟩ 32 0#32)))
        (addi (maxsi cgi (broadcastInDim ⟨2, ![M, G]⟩ ![] hb0 (constantI ⟨0, ![]⟩ 32 0#32)))
          (broadcastInDim ⟨2, ![M, G]⟩ ![] hb0 (constantI ⟨0, ![]⟩ 32 ext)))
        (maxsi cgi (broadcastInDim ⟨2, ![M, G]⟩ ![] hb0 (constantI ⟨0, ![]⟩ 32 0#32)))) (ix3 r k u)
    = wrapIdx ext (cgi (ix2 r k)) := by
  rw [inDim_ab_ab1_apply _ hb1 r k u]
  rfl

/-- The pooled matrix as the host computes it. -/
theorem host_pooled (hN : 0 < N) (ext : BitVec 32)
    (wf : GatherDims.WF ⟨2, ![N, C]⟩ ⟨3, ![M, G, 1]⟩ ⟨3, ![M, G, C]⟩ [2] [0] [] [0] [] 2 ![1, C])
    (Gd : GatherDims ⟨2, ![N, C]⟩ ⟨3, ![M, G, 1]⟩ ⟨3, ![M, G, C]⟩) (hGd : Gd = planeGatherDims N M G C wf)
    (hb0 : (⟨0, ![]⟩ : Shape).BroadcastsInDim ⟨2, ![M, G]⟩ ![])
    (hb1 : (⟨2, ![M, G]⟩ : Shape).BroadcastsInDim ⟨3, ![M, G, 1]⟩ ![0, 1])
    (hb2 : (⟨3, ![M, G, 1]⟩ : Shape).BroadcastsInDim ⟨3, ![M, G, C]⟩ ![0, 1, 2])
    (hr : (⟨3, ![M, G, C]⟩ : Shape).ReducesTo [1] ⟨2, ![M, C]⟩) (hR : (⟨3, ![M, G, C]⟩ : Shape).Reduces [1] ⟨2, ![M, C]⟩)
    (h0 : 0 < (⟨0, ![]⟩ : Shape).numel)
    (E : FVec Ideal ⟨2, ![N, C]⟩ .f32) (cgi : IVec ⟨2, ![M, G]⟩ 32) (mask : FVec Ideal ⟨2, ![M, G]⟩ .f32) :
    Host.reduceAdd (F := Ideal)
      (mulf (Host.gather Gd E (broadcastInDim ⟨3, ![M, G, 1]⟩ ![0, 1] hb1
          (select (cmpi .slt (maxsi cgi (broadcastInDim ⟨2, ![M, G]⟩ ![] hb0 (constantI ⟨0, ![]⟩ 32 0#32)))
              (broadcastInDim ⟨2, ![M, G]⟩ ![] hb0 (constantI ⟨0, ![]⟩ 32 0#32)))
            (addi (maxsi cgi (broadcastInDim ⟨2, ![M, G]⟩ ![] hb0 (constantI ⟨0, ![]⟩ 32 0#32)))
              (broadcastInDim ⟨2, ![M, G]⟩ ![] hb0 (constantI ⟨0, ![]⟩ 32 ext)))
            (maxsi cgi (broadcastInDim ⟨2, ![M, G]⟩ ![] hb0 (constantI ⟨0, ![]⟩ 32 0#32))))))
        (broadcastInDim ⟨3, ![M, G, C]⟩ ![0, 1, 2] hb2 (broadcastInDim ⟨3, ![M, G, 1]⟩ ![0, 1] hb1 mask)))
      (constant (F := Ideal) ⟨0, ![]⟩ .f32 0x00000000#32) hr h0
    = pooled hN ext E cgi mask := by
  subst hGd
  funext i
  obtain ⟨r, f, rfl⟩ : ∃ (r : Fin M) (f : Fin C), i = ix2 r f := ⟨i 0, i 1, eq_ix2 i⟩
  simp only [Host.reduceAdd, Ideal.hostReduceAdd_def]
  rw [Ideal.hostReduceAdd_single hr hR]
  show _ + ∑ k : Fin G, _ = _ + ∑ k : Fin G, _
  refine congrArg (_ + ·) (Finset.sum_congr rfl fun k _ => ?_)
  have e : hR.lift (ix2 r f) k = ix3 r k f :=
    funext fun a => Fin.ext (by match a with | ⟨0, _⟩ => rfl | ⟨1, _⟩ => rfl | ⟨2, _⟩ => rfl)
  rw [e, mulf_apply, gather_planes_apply hN wf E _ r k f, host_rownums_apply ext cgi hb0 hb1 r k 0,
    inDim_ab1_abc_apply _ hb2 r k f, inDim_ab_ab1_apply mask hb1 r k 0]
  rfl

/-- The count as the host computes it. -/
theorem host_count (hr : (⟨2, ![M, G]⟩ : Shape).ReducesTo [1] ⟨1, ![M]⟩) (hR : (⟨2, ![M, G]⟩ : Shape).Reduces [1] ⟨1, ![M]⟩)
    (h0 : 0 < (⟨0, ![]⟩ : Shape).numel) (mask : FVec Ideal ⟨2, ![M, G]⟩ .f32) :
    Host.reduceAdd (F := Ideal) mask (constant (F := Ideal) ⟨0, ![]⟩ .f32 0x00000000#32) hr h0 = count mask := by
  funext i
  obtain ⟨r, rfl⟩ : ∃ r : Fin M, i = ix1 r := ⟨i 0, eq_ix1 i⟩
  simp only [Host.reduceAdd, Ideal.hostReduceAdd_def]
  rw [Ideal.hostReduceAdd_single hr hR]
  show _ + ∑ k : Fin G, _ = _ + ∑ k : Fin G, _
  refine congrArg (_ + ·) (Finset.sum_congr rfl fun k _ => ?_)
  exact congrArg mask (funext fun a => Fin.ext (by match a with | ⟨0, _⟩ => rfl | ⟨1, _⟩ => rfl))

/-- The selection as the host computes it: two comparisons of the count, laid out as a column and spread over the
    rows, and two selects. -/
theorem host_picked (hb10 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, C]⟩ ![0, 1])
    (hbS : (⟨0, ![]⟩ : Shape).BroadcastsInDim ⟨2, ![M, C]⟩ ![])
    (n : FVec Ideal ⟨1, ![M]⟩ .f32) (s o : FVec Ideal ⟨2, ![M, C]⟩ .f32) :
    select (broadcastInDim ⟨2, ![M, C]⟩ ![0, 1] hbc
        (cmpf .oeq (broadcastInDim ⟨2, ![M, 1]⟩ ![0] hb10 n)
          (broadcastInDim ⟨2, ![M, 1]⟩ ![] hbs (constant (F := Ideal) ⟨0, ![]⟩ .f32 0x00000000#32))))
      (broadcastInDim ⟨2, ![M, C]⟩ ![] hbS (id (constant (F := Ideal) ⟨0, ![]⟩ .f32 0x00000000#32)))
      (select (broadcastInDim ⟨2, ![M, C]⟩ ![0, 1] hbc
          (cmpf .oeq (broadcastInDim ⟨2, ![M, 1]⟩ ![0] hb10 n)
            (broadcastInDim ⟨2, ![M, 1]⟩ ![] hbs (constant (F := Ideal) ⟨0, ![]⟩ .f32 0x3F800000#32))))
        s o)
    = picked n s o := by
  funext i
  obtain ⟨r, f, rfl⟩ : ∃ (r : Fin M) (f : Fin C), i = ix2 r f := ⟨i 0, i 1, eq_ix2 i⟩
  rw [select_apply, select_apply, inDim_a1_ab_apply _ hbc r f, inDim_a1_ab_apply _ hbc r f, cmpf_apply, cmpf_apply,
    inDim_a_a1_apply n hb10 r 0]
  rfl

end HostForms

/-! ## Gathering rows first, or last -/

section Rows
variable {N M B G C w : Nat}

/-- The pooled matrix of gathered rows of the row numbers and of the mask is the gathered rows of the pooled matrix. -/
theorem pooled_gathered (hN : 0 < N) (hM : 0 < M) (ext : BitVec 32) (E : FVec Ideal ⟨2, ![N, C]⟩ .f32)
    (cgi : IVec ⟨2, ![M, G]⟩ 32) (mask : FVec Ideal ⟨2, ![M, G]⟩ .f32)
    (cgi' : IVec ⟨2, ![B, G]⟩ 32) (mask' : FVec Ideal ⟨2, ![B, G]⟩ .f32) (g : Fin B → Fin M)
    (hc : ∀ b k, cgi' (ix2 b k) = cgi (ix2 (g b) k)) (hm : ∀ b k, mask' (ix2 b k) = mask (ix2 (g b) k))
    (b : Fin B) (f : Fin C) :
    pooled hN ext E cgi' mask' (ix2 b f) = pooled hN ext E cgi mask (ix2 (g b) f) := by
  show _ + ∑ k : Fin G, _ = _ + ∑ k : Fin G, _
  refine congrArg (_ + ·) (Finset.sum_congr rfl fun k _ => ?_)
  show E (ix2 (clampRow N hN (wrapIdx ext (cgi' (ix2 b k)))) f) * mask' (ix2 b k) = E (ix2 (clampRow N hN (wrapIdx ext (cgi (ix2 (g b) k)))) f) * mask (ix2 (g b) k)
  rw [hc b k, hm b k]

theorem count_gathered (mask : FVec Ideal ⟨2, ![M, G]⟩ .f32) (mask' : FVec Ideal ⟨2, ![B, G]⟩ .f32) (g : Fin B → Fin M)
    (hm : ∀ b k, mask' (ix2 b k) = mask (ix2 (g b) k)) (b : Fin B) :
    count mask' (ix1 b) = count mask (ix1 (g b)) := by
  show _ + ∑ k : Fin G, _ = _ + ∑ k : Fin G, _
  refine congrArg (_ + ·) (Finset.sum_congr rfl fun k _ => ?_)
  exact hm b k

end Rows

end Cert.LibPooledRows

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibRowLayers.lean ====
/-
  Dense layers followed by a rectifier, read as functions of rows on the extended reals.

  A layer with one factor sends a matrix x [M, K], a weight w [K, N] and a bias b [N] to the matrix whose entry
  (p, f) is max (sum over d of x (p, d) * w (d, f) + b f, 0): entry (p, f) depends on row p of x only. A layer with three
  factors adds three such inner products, ((x1.w1 + x2.w2) + x3.w3) + b, in that order of additions, before the
  rectifier. Each is stated twice: in the form a vector unit computes it (operands narrowed to bf16 first, which changes
  nothing on the extended reals; a matrix product into a zero accumulator; the bias recast to a row and spread over the
  rows; the maximum with a spread scalar zero) and in the form of the host's array operations (dot_general; the bias
  placed on axis 1 of [1, N] and spread over [M, N]; the maximum with a spread rank-0 zero). No law of arithmetic is
  needed: both forms are the same tree of sums, products and maxima at every index.
-/
import Idealize.ShloMosaic.PureOps.Ideal.Laws
import Idealize.ShloMosaic.Lib.ValueIdx
import Idealize.ShloMosaic.Lib.ValueLayout
import Idealize.ShloMosaic.Lib.Pipeline.Value
import proofs.«181204_j82789789598114_1_alg».proof.Proof.LibInnerProducts
import proofs.«181204_j82789789598114_1_alg».proof.Proof.LibInDimRow

noncomputable section

namespace Cert.LibRowLayers

open Idealize.ShloMosaic Idealize.ShloMosaic.ValueIdx Idealize.ShloMosaic.InnerProducts
open scoped BigOperators

/-- Row p of x against column f of w: the sum over d of x (p, d) * w (d, f). -/
def inner {M K N : ℕ} (x : FVec Ideal ⟨2, ![M, K]⟩ .f32) (w : FVec Ideal ⟨2, ![K, N]⟩ .f32) (p : Fin M) (f : Fin N) : EReal :=
  ∑ d : Fin K, x (ix2 p d) * w (ix2 d f)

/-- The one-factor layer: entry (p, f) is max (x_p . w_f + b f, 0). -/
def layer1 {M K N : ℕ} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun i => max (inner x w (i 0) (i 1) + b (ix1 (i 1))) (Ideal.ofBits .f32 0x00000000#32)

/-- The three-factor layer: entry (p, f) is max (((x1_p . w1_f + x2_p . w2_f) + x3_p . w3_f) + b f, 0). -/
def layer3 {M K1 K2 K3 N : ℕ} (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32) : FVec Ideal ⟨2, ![M, N]⟩ .f32 :=
  fun i => max (((inner x1 w1 (i 0) (i 1) + inner x2 w2 (i 0) (i 1)) + inner x3 w3 (i 0) (i 1)) + b (ix1 (i 1)))
    (Ideal.ofBits .f32 0x00000000#32)

/-- A matrix product of bf16-narrowed operands into the zero accumulator, at (p, f), is the inner product. -/
theorem narrowed_matmul_apply {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (hn : FTy.bf16.bits < FTy.f32.bits)
    (p : Fin M) (f : Fin N) :
    matmul D prec (truncf .bf16 x hn) (truncf .bf16 w hn) (constant (F := Ideal) ⟨2, ![M, N]⟩ .f32 0x00000000#32) (ix2 p f)
      = inner x w p f :=
  matmul_zero_apply D hD prec (truncf .bf16 x hn) (truncf .bf16 w hn) p f

/-- The bias as the vector unit spreads it: recast [N] to [1, N], then spread over [M, N]. -/
theorem row_bias_apply {M N : ℕ} (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (f : Fin N) :
    broadcastTo ⟨2, ![M, N]⟩ (shapeCast ⟨2, ![1, N]⟩ b hc) hb (ix2 p f) = b (ix1 f) := by
  rw [broadcastTo_1b_ab_apply _ hb p f, shapeCast_a_1a_apply b hc 0 f]

/-- The bias as the host spreads it: placed on axis 1 of [1, N], then spread over [M, N]. -/
theorem host_bias_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (f : Fin N) :
    broadcastInDim ⟨2, ![M, N]⟩ ![0, 1] h2 (broadcastInDim ⟨2, ![1, N]⟩ ![1] h1 b) (ix2 p f) = b (ix1 f) := by
  rw [Cert.LibInDimRow.inDim_1b_ab_apply _ h2 p f, Cert.LibInDimRow.inDim_b_1b_apply b h1 0 f]

/-- A rank-0 value spread over a matrix reads that value everywhere. -/
theorem host_scalar_apply {M N : ℕ} (v : FVec Ideal ⟨0, ![]⟩ .f32)
    (h0 : (⟨0, ![]⟩ : Shape).BroadcastsInDim ⟨2, ![M, N]⟩ ![]) (i : (⟨2, ![M, N]⟩ : Shape).Idx) :
    broadcastInDim ⟨2, ![M, N]⟩ ![] h0 v i = v ix0 :=
  broadcastInDim_apply _ h0 v i ix0 fun ax => ax.elim0

/-- The one-factor layer as a vector unit computes it. -/
theorem unit_layer1 {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨1, ![N]⟩ .f32)
    (hn : FTy.bf16.bits < FTy.f32.bits)
    (hc : (⟨1, ![N]⟩ : Shape).ShapeCasts ⟨2, ![1, N]⟩) (hb : (⟨2, ![1, N]⟩ : Shape).Broadcasts ⟨2, ![M, N]⟩) :
    maximumf (addf (matmul D prec (truncf .bf16 x hn) (truncf .bf16 w hn) (constant (F := Ideal) ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
    = layer1 x w b := by
  funext i
  obtain ⟨p, f, rfl⟩ : ∃ (p : Fin M) (f : Fin N), i = ix2 p f := ⟨i 0, i 1, eq_ix2 i⟩
  rw [maximumf_apply, addf_apply, narrowed_matmul_apply D hD prec x w hn p f, row_bias_apply b hc hb p f, broadcast_apply]
  rfl

/-- The one-factor layer as the host's array operations compute it. -/
theorem host_layer1 {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral D prec x w) (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = layer1 x w b := by
  funext i
  obtain ⟨p, f, rfl⟩ : ∃ (p : Fin M) (f : Fin N), i = ix2 p f := ⟨i 0, i 1, eq_ix2 i⟩
  rw [maximumf_apply, addf_apply, dotGeneral_apply D hD prec x w p f, host_bias_apply b h1 h2 p f, host_scalar_apply _ h0]
  rfl

/-- The three-factor layer as a vector unit computes it. -/
theorem unit_layer3 {M K1 K2 K3 N : ℕ}
    (D1 : DotDims ⟨2, ![M, K1]⟩ ⟨2, ![K1, N]⟩ ⟨2, ![M, N]⟩) (hD1 : D1 = DotDims.plain M K1 N)
    (D2 : DotDims ⟨2, ![M, K2]⟩ ⟨2, ![K2, N]⟩ ⟨2, ![M, N]⟩) (hD2 : D2 = DotDims.plain M K2 N)
    (D3 : DotDims ⟨2, ![M, K3]⟩ ⟨2, ![K3, N]⟩ ⟨2, ![M, N]⟩) (hD3 : D3 = DotDims.plain M K3 N)
    (prec : Option ContractPrecision)
    (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32) (hn : FTy.bf16.bits < FTy.f32.bits)
    (hc : (⟨1, ![N]⟩ : Shape).ShapeCasts ⟨2, ![1, N]⟩) (hb : (⟨2, ![1, N]⟩ : Shape).Broadcasts ⟨2, ![M, N]⟩) :
    maximumf (addf (addf (addf
          (matmul D1 prec (truncf .bf16 x1 hn) (truncf .bf16 w1 hn) (constant (F := Ideal) ⟨2, ![M, N]⟩ .f32 0x00000000#32))
          (matmul D2 prec (truncf .bf16 x2 hn) (truncf .bf16 w2 hn) (constant (F := Ideal) ⟨2, ![M, N]⟩ .f32 0x00000000#32)))
          (matmul D3 prec (truncf .bf16 x3 hn) (truncf .bf16 w3 hn) (constant (F := Ideal) ⟨2, ![M, N]⟩ .f32 0x00000000#32)))
        (broadcastTo ⟨2, ![M, N]⟩ (shapeCast ⟨2, ![1, N]⟩ b hc) hb))
      (broadcast ⟨2, ![M, N]⟩ (Scalar.ofBits (F := Ideal) .f32 0x00000000#32))
    = layer3 x1 w1 x2 w2 x3 w3 b := by
  funext i
  obtain ⟨p, f, rfl⟩ : ∃ (p : Fin M) (f : Fin N), i = ix2 p f := ⟨i 0, i 1, eq_ix2 i⟩
  rw [maximumf_apply, addf_apply, addf_apply, addf_apply, narrowed_matmul_apply D1 hD1 prec x1 w1 hn p f,
    narrowed_matmul_apply D2 hD2 prec x2 w2 hn p f, narrowed_matmul_apply D3 hD3 prec x3 w3 hn p f,
    row_bias_apply b hc hb p f, broadcast_apply]
  rfl

/-- The three-factor layer as the host's array operations compute it. -/
theorem host_layer3 {M K1 K2 K3 N : ℕ}
    (D1 : DotDims ⟨2, ![M, K1]⟩ ⟨2, ![K1, N]⟩ ⟨2, ![M, N]⟩) (hD1 : D1 = DotDims.plain M K1 N)
    (D2 : DotDims ⟨2, ![M, K2]⟩ ⟨2, ![K2, N]⟩ ⟨2, ![M, N]⟩) (hD2 : D2 = DotDims.plain M K2 N)
    (D3 : DotDims ⟨2, ![M, K3]⟩ ⟨2, ![K3, N]⟩ ⟨2, ![M, N]⟩) (hD3 : D3 = DotDims.plain M K3 N)
    (prec : Option ContractPrecision)
    (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (addf (Host.dotGeneral D1 prec x1 w1) (Host.dotGeneral D2 prec x2 w2)) (Host.dotGeneral D3 prec x3 w3))
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = layer3 x1 w1 x2 w2 x3 w3 b := by
  funext i
  obtain ⟨p, f, rfl⟩ : ∃ (p : Fin M) (f : Fin N), i = ix2 p f := ⟨i 0, i 1, eq_ix2 i⟩
  rw [maximumf_apply, addf_apply, addf_apply, addf_apply, dotGeneral_apply D1 hD1 prec x1 w1 p f,
    dotGeneral_apply D2 hD2 prec x2 w2 p f, dotGeneral_apply D3 hD3 prec x3 w3 p f,
    host_bias_apply b h1 h2 p f, host_scalar_apply _ h0]
  rfl

end Cert.LibRowLayers

end
-- ==== Proof.LibLayerRows.lean ====
/-
  A dense layer with a rectifier, read row by row.

  Entry (p, f) of max (x . w + b, 0) is max (sum over d of x (p, d) * w (d, f) + b f, 0): it reads row p of the left
  factor and nothing else of it. So a block of consecutive rows of the left factor, pushed through the layer, is the same
  block of rows of the whole matrix pushed through the layer: a grid of row blocks computes the layer of the whole
  matrix, whatever the number of blocks. No law of arithmetic is used, only that the two sides are one expression.
-/
import proofs.«181204_j82789789598114_1_alg».proof.Proof.LibRowLayers

noncomputable section

namespace Cert.LibLayerRows

open Idealize.ShloMosaic Idealize.ShloMosaic.ValueIdx Cert.LibRowLayers
open scoped BigOperators

/-- If row p of the block xb is row q of the matrix X, the layer of xb at (p, f) is the layer of X at (q, f). -/
theorem layer1_row_congr {M M' K N : ℕ} (X : FVec Ideal ⟨2, ![M, K]⟩ .f32) (xb : FVec Ideal ⟨2, ![M', K]⟩ .f32)
    (w : FVec Ideal ⟨2, ![K, N]⟩ .f32) (b : FVec Ideal ⟨1, ![N]⟩ .f32) (p : Fin M') (q : Fin M) (f : Fin N)
    (h : ∀ d : Fin K, xb (ix2 p d) = X (ix2 q d)) :
    layer1 xb w b (ix2 p f) = layer1 X w b (ix2 q f) := by
  show max ((∑ d : Fin K, xb (ix2 p d) * w (ix2 d f)) + b (ix1 f)) _
    = max ((∑ d : Fin K, X (ix2 q d) * w (ix2 d f)) + b (ix1 f)) _
  rw [Finset.sum_congr rfl fun d _ => by rw [h d]]

/-- The same at indices given by their coordinates' values: block index y, matrix index i, with i's row the row of
    the matrix that row (y 0) of the block is, and the same column. -/
theorem layer1_block {M M' K N : ℕ} (X : FVec Ideal ⟨2, ![M, K]⟩ .f32) (xb : FVec Ideal ⟨2, ![M', K]⟩ .f32)
    (w : FVec Ideal ⟨2, ![K, N]⟩ .f32) (b : FVec Ideal ⟨1, ![N]⟩ .f32)
    (y : (⟨2, ![M', N]⟩ : Shape).Idx) (i : (⟨2, ![M, N]⟩ : Shape).Idx) (hcol : (i 1).val = (y 1).val)
    (h : ∀ d : Fin K, xb (ix2 (y 0) d) = X (ix2 (i 0) d)) :
    layer1 xb w b y = layer1 X w b i := by
  have e : (i 1 : Fin N) = y 1 := Fin.ext hcol
  rw [eq_ix2 y, eq_ix2 i, e]
  exact layer1_row_congr X xb w b (y 0) (i 0) (y 1) h

end Cert.LibLayerRows

end
-- ==== Proof.LibPooledLayers.lean ====
/-
  A pooled matrix through two rectified dense layers and a selection, and rows of it gathered: for any extents.

  With the pooled matrix P [M, C] of a table by row numbers and a mask, its count n [M], and two dense layers with a
  rectifier, h = max (P . w1 + b1, 0) and o = max (h . w2 + b2, 0), the selected matrix reads at (r, f) zero, P (r, f) or
  o (r, f) as the count of row r is zero, one or anything else.  Row r of every one of these arrays is a function of row r
  of the row numbers and of the mask alone.  So the selected matrix of the rows gathered beforehand (the row numbers and
  the mask gathered by an index array) is the rows of the selected matrix gathered afterwards by the same index array.
  Also here: a dense layer whose bias row is a spread zero is the bare matrix product, and a dense layer whose bias row
  is a recast vector is the layer with that vector as its bias.
-/
import proofs.«181204_j82789789598114_1_alg».proof.Proof.LibPooledRows
import proofs.«181204_j82789789598114_1_alg».proof.Proof.LibDenseBlock
import proofs.«181204_j82789789598114_1_alg».proof.Proof.LibLayerRows
import Idealize.ShloMosaic.Lib.ValueLayout

noncomputable section

open scoped BigOperators

namespace Cert.LibPooledLayers

open Idealize.ShloMosaic Idealize.ShloMosaic.ValueIdx Idealize.ShloMosaic.InnerProducts
open Cert.LibPooledRows Cert.LibDenseBlock Cert.LibRowLayers Cert.LibLayerRows Cert.LibIndexedRows Cert.SegmentDims

/-! ## Bias rows -/

section Bias
variable {M K N : ℕ}

/-- A spread zero recast to a row reads zero. -/
theorem zero_row_apply (hbz : (⟨0, ![]⟩ : Shape).BroadcastsInDim ⟨1, ![N]⟩ ![])
    (hc : (⟨1, ![N]⟩ : Shape).ShapeCasts ⟨2, ![1, N]⟩) (u : Fin 1) (f : Fin N) :
    shapeCast ⟨2, ![1, N]⟩ (broadcastInDim ⟨1, ![N]⟩ ![] hbz (constant (F := Ideal) ⟨0, ![]⟩ .f32 0x00000000#32)) hc (ix2 u f) = 0 := by
  rw [shapeCast_a_1a_apply _ hc u f]
  exact Ideal.ofBits_zero_f32

/-- A dense layer whose bias row is a spread zero is the bare matrix product. -/
theorem affine_zero_bias (D : DotDims ⟨2, ![M, K]⟩ ⟨2, ![K, N]⟩ ⟨2, ![M, N]⟩) (hD : D = DotDims.plain M K N)
    (prec : Option ContractPrecision) (A : FVec Ideal ⟨2, ![M, K]⟩ .f32) (W : FVec Ideal ⟨2, ![K, N]⟩ .f32)
    (hbz : (⟨0, ![]⟩ : Shape).BroadcastsInDim ⟨1, ![N]⟩ ![]) (hc : (⟨1, ![N]⟩ : Shape).ShapeCasts ⟨2, ![1, N]⟩) :
    affine A W (shapeCast ⟨2, ![1, N]⟩ (broadcastInDim ⟨1, ![N]⟩ ![] hbz (constant (F := Ideal) ⟨0, ![]⟩ .f32 0x00000000#32)) hc)
      = Host.dotGeneral D prec A W := by
  funext i
  obtain ⟨p, f, rfl⟩ : ∃ (p : Fin M) (f : Fin N), i = ix2 p f := ⟨i 0, i 1, eq_ix2 i⟩
  rw [dotGeneral_apply D hD prec A W p f]
  show (∑ d : Fin K, A (ix2 p d) * W (ix2 d f)) + shapeCast ⟨2, ![1, N]⟩ _ hc (ix2 (0 : Fin 1) f) = _
  rw [zero_row_apply hbz hc 0 f, add_zero]

/-- The same followed by the rectifier, against the host's maximum with a spread zero. -/
theorem affineRelu_zero_bias (D : DotDims ⟨2, ![M, K]⟩ ⟨2, ![K, N]⟩ ⟨2, ![M, N]⟩) (hD : D = DotDims.plain M K N)
    (prec : Option ContractPrecision) (A : FVec Ideal ⟨2, ![M, K]⟩ .f32) (W : FVec Ideal ⟨2, ![K, N]⟩ .f32)
    (hbz : (⟨0, ![]⟩ : Shape).BroadcastsInDim ⟨1, ![N]⟩ ![]) (hc : (⟨1, ![N]⟩ : Shape).ShapeCasts ⟨2, ![1, N]⟩)
    (h0 : (⟨0, ![]⟩ : Shape).BroadcastsInDim ⟨2, ![M, N]⟩ ![]) :
    affineRelu A W (shapeCast ⟨2, ![1, N]⟩ (broadcastInDim ⟨1, ![N]⟩ ![] hbz (constant (F := Ideal) ⟨0, ![]⟩ .f32 0x00000000#32)) hc)
      = maximumf (Host.dotGeneral D prec A W) (broadcastInDim ⟨2, ![M, N]⟩ ![] h0 (constant (F := Ideal) ⟨0, ![]⟩ .f32 0x00000000#32)) := by
  funext i
  rw [maximumf_apply, ← affine_zero_bias D hD prec A W hbz hc, host_scalar_apply _ h0]
  rfl

/-- A dense layer with a rectifier whose bias row is a recast vector is the layer with that vector as its bias. -/
theorem affineRelu_cast_bias (X : FVec Ideal ⟨2, ![M, K]⟩ .f32) (W : FVec Ideal ⟨2, ![K, N]⟩ .f32)
    (b : FVec Ideal ⟨1, ![N]⟩ .f32) (hc : (⟨1, ![N]⟩ : Shape).ShapeCasts ⟨2, ![1, N]⟩) :
    affineRelu X W (shapeCast ⟨2, ![1, N]⟩ b hc) = layer1 X W b := by
  funext i
  show max ((∑ d : Fin K, X (ix2 (i 0) d) * W (ix2 d (i 1))) + shapeCast ⟨2, ![1, N]⟩ b hc (ix2 (0 : Fin 1) (i 1))) _ = _
  rw [shapeCast_a_1a_apply b hc 0 (i 1)]
  rfl

end Bias

/-! ## Rows gathered first, or last -/

section Rows
variable {N M B G C H w : ℕ}

/-- The selected matrix, from the table, the row numbers, the mask and the two layers' weights and biases. -/
def selected (hN : 0 < N) (ext : BitVec 32) (E : FVec Ideal ⟨2, ![N, C]⟩ .f32) (cgi : IVec ⟨2, ![M, G]⟩ 32)
    (mask : FVec Ideal ⟨2, ![M, G]⟩ .f32) (w1 : FVec Ideal ⟨2, ![C, H]⟩ .f32) (b1 : FVec Ideal ⟨1, ![H]⟩ .f32)
    (w2 : FVec Ideal ⟨2, ![H, C]⟩ .f32) (b2 : FVec Ideal ⟨1, ![C]⟩ .f32) : FVec Ideal ⟨2, ![M, C]⟩ .f32 :=
  picked (count mask) (pooled hN ext E cgi mask) (layer1 (layer1 (pooled hN ext E cgi mask) w1 b1) w2 b2)

/-- Gathering rows of the row numbers and of the mask first, then selecting, is selecting and then gathering rows. -/
theorem selected_gathered (hN : 0 < N) (hM : 0 < M) (ext : BitVec 32) (E : FVec Ideal ⟨2, ![N, C]⟩ .f32)
    (cgi : IVec ⟨2, ![M, G]⟩ 32) (mask : FVec Ideal ⟨2, ![M, G]⟩ .f32)
    (w1 : FVec Ideal ⟨2, ![C, H]⟩ .f32) (b1 : FVec Ideal ⟨1, ![H]⟩ .f32)
    (w2 : FVec Ideal ⟨2, ![H, C]⟩ .f32) (b2 : FVec Ideal ⟨1, ![C]⟩ .f32) (gi : IVec ⟨2, ![B, 1]⟩ w)
    (wfC : GatherDims.WF ⟨2, ![M, C]⟩ ⟨2, ![B, 1]⟩ ⟨2, ![B, C]⟩ [1] [0] [] [0] [] 1 ![1, C])
    (wfG : GatherDims.WF ⟨2, ![M, G]⟩ ⟨2, ![B, 1]⟩ ⟨2, ![B, G]⟩ [1] [0] [] [0] [] 1 ![1, G]) :
    Host.gather (rowGatherDims M B C wfC) (selected hN ext E cgi mask w1 b1 w2 b2) gi
      = selected hN ext E (Host.gather (rowGatherDims M B G wfG) cgi gi) (Host.gather (rowGatherDims M B G wfG) mask gi)
          w1 b1 w2 b2 := by
  funext i
  obtain ⟨b, f, rfl⟩ : ∃ (b : Fin B) (f : Fin C), i = ix2 b f := ⟨i 0, i 1, eq_ix2 i⟩
  rw [gather_rows_apply hM wfC _ gi b f]
  have hc : ∀ b k, Host.gather (rowGatherDims M B G wfG) cgi gi (ix2 b k) = cgi (ix2 (clampRow M hM (gi (ix2 b (0 : Fin 1)))) k) :=
    fun b k => gather_rows_apply hM wfG cgi gi b k
  have hm : ∀ b k, Host.gather (rowGatherDims M B G wfG) mask gi (ix2 b k) = mask (ix2 (clampRow M hM (gi (ix2 b (0 : Fin 1)))) k) :=
    fun b k => gather_rows_apply hM wfG mask gi b k
  have hp : ∀ d : Fin C, pooled hN ext E (Host.gather (rowGatherDims M B G wfG) cgi gi) (Host.gather (rowGatherDims M B G wfG) mask gi) (ix2 b d)
      = pooled hN ext E cgi mask (ix2 (clampRow M hM (gi (ix2 b (0 : Fin 1)))) d) :=
    fun d => pooled_gathered hN hM ext E cgi mask _ _ (fun b => clampRow M hM (gi (ix2 b (0 : Fin 1)))) hc hm b d
  have hh : ∀ d : Fin H, layer1 (pooled hN ext E (Host.gather (rowGatherDims M B G wfG) cgi gi) (Host.gather (rowGatherDims M B G wfG) mask gi)) w1 b1 (ix2 b d)
      = layer1 (pooled hN ext E cgi mask) w1 b1 (ix2 (clampRow M hM (gi (ix2 b (0 : Fin 1)))) d) :=
    fun d => layer1_row_congr _ _ w1 b1 b _ d hp
  show picked _ _ _ (ix2 (clampRow M hM (gi (ix2 b (0 : Fin 1)))) f) = picked _ _ _ (ix2 b f)
  show pick (count mask (ix1 (clampRow M hM (gi (ix2 b (0 : Fin 1)))))) (pooled hN ext E cgi mask (ix2 (clampRow M hM (gi (ix2 b (0 : Fin 1)))) f))
      (layer1 (layer1 (pooled hN ext E cgi mask) w1 b1) w2 b2 (ix2 (clampRow M hM (gi (ix2 b (0 : Fin 1)))) f))
    = pick (count (Host.gather (rowGatherDims M B G wfG) mask gi) (ix1 b))
      (pooled hN ext E (Host.gather (rowGatherDims M B G wfG) cgi gi) (Host.gather (rowGatherDims M B G wfG) mask gi) (ix2 b f))
      (layer1 (layer1 (pooled hN ext E (Host.gather (rowGatherDims M B G wfG) cgi gi) (Host.gather (rowGatherDims M B G wfG) mask gi)) w1 b1) w2 b2 (ix2 b f))
  rw [count_gathered mask _ (fun b => clampRow M hM (gi (ix2 b (0 : Fin 1)))) hm b, hp f,
    layer1_row_congr _ _ w2 b2 b (clampRow M hM (gi (ix2 b (0 : Fin 1)))) f hh]

end Rows

end Cert.LibPooledLayers

end
-- ==== Proof.KernelValue.lean ====
/-
  The idealized kernel's result as a function of the argument arrays.

  The fold through @main is read boundary by boundary.  The first stretch of host operations aggregates the table over
  the graph's edges (a gather of rows, a product with the edge weights, a scatter-add into zeros) and cuts the first
  weight matrix out of the stack; region 0 leaves the rectified dense layer of the aggregate; the second stretch
  aggregates that and region 1 leaves the second, bare, dense layer: the embedded table.  The third stretch pools the
  embedded table by the conditions' row numbers and mask and counts the mask; regions 2 and 3 leave the two rectified
  dense layers of the pooled matrix; the tail selects by the count and gathers the rows the batch asks for.
-/
import proofs.«181204_j82789789598114_1_alg».proof.Proof.Boundaries
import proofs.«181204_j82789789598114_1_alg».proof.Proof.Regions
import proofs.«181204_j82789789598114_1_alg».proof.Proof.LibPooledLayers

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem
open Cert.LibDenseBlock Cert.LibPooledRows Cert.LibPooledLayers Cert.LibRowLayers Cert.SegmentDims

/-! ## The host terms -/

/-- The aggregate of a table over the edges: rows gathered at the edges' (wrapped) column numbers, scaled by the
    edges' weights, added into zeros at the edges' row numbers. -/
def agg (x : (⟨S20000x256, .f32⟩ : BufTy).Contents (Elt Ideal)) (a7 a8 : (⟨S640000, .i32⟩ : BufTy).Contents (Elt Ideal))
    (a9 : (⟨S640000, .f32⟩ : BufTy).Contents (Elt Ideal)) : (⟨S20000x256, .f32⟩ : BufTy).Contents (Elt Ideal) :=
  Host.scatterAdd (F := Ideal) scatter_S20000x256_S640000x1_S640000x256_1_0_0_1
    (broadcastInDim S20000x256 ![] bcast_S_S20000x256 (constant (F := Ideal) S_ .f32 0x00000000#32))
    (broadcastInDim S640000x1 ![0] bcast_S640000_S640000x1_0 a7)
    (mulf (F := Ideal) (broadcastInDim S640000x256 ![0, 1] bcast_S640000x1_S640000x256_0_1 (broadcastInDim S640000x1 ![0] bcast_S640000_S640000x1_0 a9))
      (Host.gather gather_S20000x256_S640000x1_S640000x256_1_0_n_n_0_1_1256 x
        (broadcastInDim S640000x1 ![0] bcast_S640000_S640000x1_0
          (select (cmpi .slt a8 (broadcastInDim S640000 ![] bcast_S_S640000 (constantI S_ 32 0#32)))
            (addi a8 (broadcastInDim S640000 ![] bcast_S_S640000 (constantI S_ 32 20000#32))) a8))))

/-- The first and the second weight matrix of the stack. -/
def weight0 (a2 : (⟨S2x256x256, .f32⟩ : BufTy).Contents (Elt Ideal)) : (⟨S256x256, .f32⟩ : BufTy).Contents (Elt Ideal) :=
  shapeCast S256x256 (extractStridedSlice S1x256x256 ![0, 0, 0] a2 slices_S2x256x256_S1x256x256_0_0_0) shapeCasts_S1x256x256_S256x256
def weight1 (a2 : (⟨S2x256x256, .f32⟩ : BufTy).Contents (Elt Ideal)) : (⟨S256x256, .f32⟩ : BufTy).Contents (Elt Ideal) :=
  shapeCast S256x256 (extractStridedSlice S1x256x256 ![1, 0, 0] a2 slices_S2x256x256_S1x256x256_1_0_0) shapeCasts_S1x256x256_S256x256

/-- A spread zero recast to a bias row. -/
def zeroRow : (⟨S1x256, .f32⟩ : BufTy).Contents (Elt Ideal) :=
  shapeCast S1x256 (broadcastInDim S256 ![] bcast_S_S256 (constant (F := Ideal) S_ .f32 0x00000000#32)) shapeCasts_S256_S1x256

/-- The table after the first layer, and the embedded table after the second. -/
def emb1 (a1 : (⟨S20000x256, .f32⟩ : BufTy).Contents (Elt Ideal)) (a2 : (⟨S2x256x256, .f32⟩ : BufTy).Contents (Elt Ideal))
    (a7 a8 : (⟨S640000, .i32⟩ : BufTy).Contents (Elt Ideal)) (a9 : (⟨S640000, .f32⟩ : BufTy).Contents (Elt Ideal)) :
    (⟨S20000x256, .f32⟩ : BufTy).Contents (Elt Ideal) :=
  affineRelu (agg a1 a7 a8 a9) (weight0 a2) zeroRow
def emb2 (a1 : (⟨S20000x256, .f32⟩ : BufTy).Contents (Elt Ideal)) (a2 : (⟨S2x256x256, .f32⟩ : BufTy).Contents (Elt Ideal))
    (a7 a8 : (⟨S640000, .i32⟩ : BufTy).Contents (Elt Ideal)) (a9 : (⟨S640000, .f32⟩ : BufTy).Contents (Elt Ideal)) :
    (⟨S20000x256, .f32⟩ : BufTy).Contents (Elt Ideal) :=
  affine (agg (emb1 a1 a2 a7 a8 a9) a7 a8 a9) (weight1 a2) zeroRow

/-- The batch's row numbers into the conditions, as the host prepares and lays them out. -/
def batchRows (a0 : (⟨S16384, .i32⟩ : BufTy).Contents (Elt Ideal)) : (⟨S16384x1, .i32⟩ : BufTy).Contents (Elt Ideal) :=
  broadcastInDim S16384x1 ![0] bcast_S16384_S16384x1_0
    (select (cmpi .slt a0 (broadcastInDim S16384 ![] bcast_S_S16384 (constantI S_ 32 0#32)))
      (addi a0 (broadcastInDim S16384 ![] bcast_S_S16384 (constantI S_ 32 2000#32))) a0)

variable (m : (ℓ : Loc nD τ sig) → Buf (Elt Ideal) ℓ) (ρ : Dev nD → PrngReg)

/-! ## The first layer -/

set_option maxHeartbeats 4000000 in
theorem W1_v12 (c : Dev nD) : W1 m ρ c (Proc.devRef .tc main_v12) = agg (m ((c : Thread nD τ).loc main_arg1)) (m ((c : Thread nD τ).loc main_arg7)) (m ((c : Thread nD τ).loc main_arg8)) (m ((c : Thread nD τ).loc main_arg9)) := by
  show StableHlo.after hostOps0 (W0 m ρ c) (Proc.devRef .tc main_v12) = _
  after_results_simp
  rfl

set_option maxHeartbeats 4000000 in
theorem W1_v14 (c : Dev nD) : W1 m ρ c (Proc.devRef .tc main_v14) = weight0 (m ((c : Thread nD τ).loc main_arg2)) := by
  show StableHlo.after hostOps0 (W0 m ρ c) (Proc.devRef .tc main_v14) = _
  after_results_simp
  rfl

set_option maxHeartbeats 4000000 in
theorem W1_v16 (c : Dev nD) : W1 m ρ c (Proc.devRef .tc main_v16) = zeroRow := by
  show StableHlo.after hostOps0 (W0 m ρ c) (Proc.devRef .tc main_v16) = _
  after_results_simp
  rfl

theorem W2_v17 (c : Dev nD) : W2 m ρ c (Proc.devRef .tc main_v17) = emb1 (m ((c : Thread nD τ).loc main_arg1)) (m ((c : Thread nD τ).loc main_arg2)) (m ((c : Thread nD τ).loc main_arg7)) (m ((c : Thread nD τ).loc main_arg8)) (m ((c : Thread nD τ).loc main_arg9)) := by
  refine (W2_arr m ρ c 3).trans ((arr0 (V1 m ρ) c).trans ?_)
  show affineRelu (W1 m ρ c (Proc.devRef .tc main_v12)) (W1 m ρ c (Proc.devRef .tc main_v14)) (W1 m ρ c (Proc.devRef .tc main_v16)) = _
  rw [W1_v12, W1_v14, W1_v16]
  rfl

/-! ## The second layer -/

set_option maxHeartbeats 4000000 in
theorem W3_v30 (c : Dev nD) : W3 m ρ c (Proc.devRef .tc main_v30) = agg (emb1 (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg7)) (m ((c : Thread nD τ).loc main_arg8)) (m ((c : Thread nD τ).loc main_arg9)) := by
  show StableHlo.after hostOps1 (W2 m ρ c) (Proc.devRef .tc main_v30) = _
  after_results_simp
  rw [W2_v17, W2_arg7, W2_arg8, W2_arg9]
  rfl

set_option maxHeartbeats 4000000 in
theorem W3_v32 (c : Dev nD) : W3 m ρ c (Proc.devRef .tc main_v32) = weight1 (m ((c : Thread nD τ).loc main_arg2)) := by
  show StableHlo.after hostOps1 (W2 m ρ c) (Proc.devRef .tc main_v32) = _
  after_results_simp
  rw [W2_arg2]
  rfl

set_option maxHeartbeats 4000000 in
theorem W3_v34 (c : Dev nD) : W3 m ρ c (Proc.devRef .tc main_v34) = zeroRow := by
  show StableHlo.after hostOps1 (W2 m ρ c) (Proc.devRef .tc main_v34) = _
  after_results_simp
  rfl

theorem W4_v35 (c : Dev nD) : W4 m ρ c (Proc.devRef .tc main_v35) = emb2 (m ((c : Thread nD τ).loc main_arg1)) (m ((c : Thread nD τ).loc main_arg2)) (m ((c : Thread nD τ).loc main_arg7)) (m ((c : Thread nD τ).loc main_arg8)) (m ((c : Thread nD τ).loc main_arg9)) := by
  refine (W4_arr m ρ c 3).trans ((arr1 (V3 m ρ) c).trans ?_)
  show affine (W3 m ρ c (Proc.devRef .tc main_v30)) (W3 m ρ c (Proc.devRef .tc main_v32)) (W3 m ρ c (Proc.devRef .tc main_v34)) = _
  rw [W3_v30, W3_v32, W3_v34]
  rfl

/-! ## The pooled matrix, the count, and the two layers on them -/

set_option maxHeartbeats 4000000 in
theorem W5_v48 (c : Dev nD) : W5 m ρ c (Proc.devRef .tc main_v48)
    = pooled (N := 20000) (by decide) 20000#32 (emb2 (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg10)) (m ((c : Thread nD τ).loc main_arg11)) := by
  show StableHlo.after hostOps2 (W4 m ρ c) (Proc.devRef .tc main_v48) = _
  after_results_simp
  rw [W4_v35, W4_arg10, W4_arg11]
  exact host_pooled (N := 20000) (M := 2000) (G := 5) (C := 256) (by decide) 20000#32
    gather_S20000x256_S2000x5x1_S2000x5x256_2_0_n_n_0_2_1256_wf gather_S20000x256_S2000x5x1_S2000x5x256_2_0_n_n_0_2_1256 rfl
    bcast_S_S2000x5 bcast_S2000x5_S2000x5x1_0_1 bcast_S2000x5x1_S2000x5x256_0_1_2 reducesTo_S2000x5x256_S2000x256_d1 (by decide) h_S_
    _ _ _

set_option maxHeartbeats 4000000 in
theorem W5_v49 (c : Dev nD) : W5 m ρ c (Proc.devRef .tc main_v49) = count (M := 2000) (G := 5) (m ((c : Thread nD τ).loc main_arg11)) := by
  show StableHlo.after hostOps2 (W4 m ρ c) (Proc.devRef .tc main_v49) = _
  after_results_simp
  rw [W4_arg11]
  exact host_count (M := 2000) (G := 5) reducesTo_S2000x5_S2000_d1 (by decide) h_S_ _

set_option maxHeartbeats 4000000 in
theorem W5_v50 (c : Dev nD) : W5 m ρ c (Proc.devRef .tc main_v50) = shapeCast S1x256 (m ((c : Thread nD τ).loc main_arg4)) shapeCasts_S256_S1x256 := by
  show StableHlo.after hostOps2 (W4 m ρ c) (Proc.devRef .tc main_v50) = _
  after_results_simp
  rw [W4_arg4]
  rfl

theorem W6_v51 (c : Dev nD) : W6 m ρ c (Proc.devRef .tc main_v51)
    = layer1 (pooled (N := 20000) (M := 2000) (G := 5) (C := 256) (by decide) 20000#32 (emb2 (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg3)) (m ((c : Thread nD τ).loc main_arg4)) := by
  refine (W6_arr m ρ c 3).trans ((arr2 (V5 m ρ) c).trans ?_)
  show affineRelu (W5 m ρ c (Proc.devRef .tc main_v48)) (W5 m ρ c (Proc.devRef .tc main_arg3)) (W5 m ρ c (Proc.devRef .tc main_v50)) = _
  rw [W5_v48, W5_arg3, W5_v50]
  exact affineRelu_cast_bias (M := 2000) (K := 256) (N := 256) _ _ _ _

theorem W7_v51 (c : Dev nD) : W7 m ρ c (Proc.devRef .tc main_v51)
    = layer1 (pooled (N := 20000) (M := 2000) (G := 5) (C := 256) (by decide) 20000#32 (emb2 (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg3)) (m ((c : Thread nD τ).loc main_arg4)) :=
  (show StableHlo.after hostOps3 (W6 m ρ c) (Proc.devRef .tc main_v51) = W6 m ρ c (Proc.devRef .tc main_v51) by untouched hostOps3).trans (W6_v51 m ρ c)

set_option maxHeartbeats 4000000 in
theorem W7_v52 (c : Dev nD) : W7 m ρ c (Proc.devRef .tc main_v52) = shapeCast S1x256 (m ((c : Thread nD τ).loc main_arg6)) shapeCasts_S256_S1x256 := by
  show StableHlo.after hostOps3 (W6 m ρ c) (Proc.devRef .tc main_v52) = _
  after_results_simp
  rw [W6_arg6]
  rfl

theorem W8_v53 (c : Dev nD) : W8 m ρ c (Proc.devRef .tc main_v53)
    = layer1 (layer1 (pooled (N := 20000) (M := 2000) (G := 5) (C := 256) (by decide) 20000#32 (emb2 (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg3)) (m ((c : Thread nD τ).loc main_arg4))) (m ((c : Thread nD τ).loc main_arg5)) (m ((c : Thread nD τ).loc main_arg6)) := by
  refine (W8_arr m ρ c 3).trans ((arr3 (V7 m ρ) c).trans ?_)
  show affineRelu (W7 m ρ c (Proc.devRef .tc main_v51)) (W7 m ρ c (Proc.devRef .tc main_arg5)) (W7 m ρ c (Proc.devRef .tc main_v52)) = _
  rw [W7_v51, W7_arg5, W7_v52]
  exact affineRelu_cast_bias (M := 2000) (K := 256) (N := 256) _ _ _ _

theorem W8_v48 (c : Dev nD) : W8 m ρ c (Proc.devRef .tc main_v48)
    = pooled (N := 20000) (by decide) 20000#32 (emb2 (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg10)) (m ((c : Thread nD τ).loc main_arg11)) :=
  (W8_of_ne m ρ c main_v48 (by decide)).trans
    ((show StableHlo.after hostOps3 (W6 m ρ c) (Proc.devRef .tc main_v48) = W6 m ρ c (Proc.devRef .tc main_v48) by untouched hostOps3).trans
      (((W6_arr m ρ c 0).trans (((dat2 (V5 m ρ) c).arrAt_in 0 rfl _).trans (A_eq2 (V5 m ρ) c 0))).trans (W5_v48 m ρ c)))

theorem W8_v49 (c : Dev nD) : W8 m ρ c (Proc.devRef .tc main_v49) = count (M := 2000) (G := 5) (m ((c : Thread nD τ).loc main_arg11)) :=
  (W8_of_ne m ρ c main_v49 (by decide)).trans
    ((show StableHlo.after hostOps3 (W6 m ρ c) (Proc.devRef .tc main_v49) = W6 m ρ c (Proc.devRef .tc main_v49) by untouched hostOps3).trans
      ((W6_of_ne m ρ c main_v49 (by decide)).trans (W5_v49 m ρ c)))

/-! ## The result -/

set_option maxHeartbeats 8000000 in
/-- The result: the rows the batch asks for of the matrix selected, per condition, among zero, the pooled row and the
    two-layer image of the pooled row. -/
theorem result (c : Dev nD) : W13 m ρ c (Proc.devRef .tc main_v67)
    = Host.gather (rowGatherDims 2000 16384 256 gather_S2000x256_S16384x1_S16384x256_1_0_n_n_0_1_1256_wf)
        (selected (N := 20000) (M := 2000) (G := 5) (C := 256) (H := 256) (by decide) 20000#32 (emb2 (m ((c : Thread nD τ).loc main_arg1)) (m ((c : Thread nD τ).loc main_arg2)) (m ((c : Thread nD τ).loc main_arg7)) (m ((c : Thread nD τ).loc main_arg8)) (m ((c : Thread nD τ).loc main_arg9)))
          (m ((c : Thread nD τ).loc main_arg10)) (m ((c : Thread nD τ).loc main_arg11)) (m ((c : Thread nD τ).loc main_arg3)) (m ((c : Thread nD τ).loc main_arg4)) (m ((c : Thread nD τ).loc main_arg5)) (m ((c : Thread nD τ).loc main_arg6)))
        (batchRows (m ((c : Thread nD τ).loc main_arg0))) := by
  show StableHlo.after hostOps4_4 (StableHlo.after hostOps4_3 (StableHlo.after hostOps4_2 (StableHlo.after hostOps4_1
    (StableHlo.after hostOps4 (W8 m ρ c))))) (Proc.devRef .tc main_v67) = _
  after_results_simp
  rw [W8_v49, W8_v48, W8_v53, W8_arg0]
  unfold selected
  rw [← host_picked (M := 2000) (C := 256) bcast_S2000_S2000x1_0 bcast_S_S2000x1 bcast_S2000x1_S2000x256_0_1 bcast_S_S2000x256]
  rfl

end Cert.KernelIdeal.Whole

end
-- ==== Proof.RefValue.lean ====
/-
  The idealized reference's result as the selected matrix of gathered rows.

  The reference gathers, for every element of the batch, its condition's row numbers and mask, pools the embedded table
  by them, counts the mask, runs the pooled matrix through the two rectified dense layers and selects by the count: the
  host's spelling, one stage at a time, of the selected matrix of the gathered rows.
-/
import proofs.«181204_j82789789598114_1_alg».proof.Proof.Gen.ReferenceIdeal.Read
import proofs.«181204_j82789789598114_1_alg».proof.Proof.LibPooledLayers

set_option maxRecDepth 16384

noncomputable section

namespace Cert.ReferenceIdeal.Whole

open Cert.ReferenceIdeal Cert.ReferenceIdeal.Read Cert.ReferenceIdeal.Facts₀
open Idealize.ShloMosaic Idealize.ShloMosaic.TcCoe Idealize.SL.Sem
open Cert.LibPooledRows Cert.LibPooledLayers Cert.LibRowLayers Cert.SegmentDims

set_option maxHeartbeats 4000000 in
/-- The reference's result stage is the selected matrix of the gathered rows of the row numbers and of the mask, over
    the reference's embedded table. -/
theorem result (a0 : (⟨S16384, .i32⟩ : BufTy).Contents (Elt Ideal)) (a1 : (⟨S20000x256, .f32⟩ : BufTy).Contents (Elt Ideal)) (a2 : (⟨S2x256x256, .f32⟩ : BufTy).Contents (Elt Ideal)) (a3 : (⟨S256x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal)) (a7 : (⟨S640000, .i32⟩ : BufTy).Contents (Elt Ideal)) (a8 : (⟨S640000, .i32⟩ : BufTy).Contents (Elt Ideal)) (a9 : (⟨S640000, .f32⟩ : BufTy).Contents (Elt Ideal)) (a10 : (⟨S2000x5, .i32⟩ : BufTy).Contents (Elt Ideal)) (a11 : (⟨S2000x5, .f32⟩ : BufTy).Contents (Elt Ideal)) :
    val_main_v77 (F := Ideal) a0 a1 a2 a3 a4 a5 a6 a7 a8 a9 a10 a11
      = selected (N := 20000) (M := 16384) (G := 5) (C := 256) (H := 256) (by decide) 20000#32 (val_main_v32 (F := Ideal) a1 a2 a7 a8 a9)
          (Host.gather (rowGatherDims 2000 16384 5 gather_S2000x5_S16384x1_S16384x5_1_0_n_n_0_1_15_wf) a10 (val_main_v38 (F := Ideal) a0))
          (Host.gather (rowGatherDims 2000 16384 5 gather_S2000x5_S16384x1_S16384x5_1_0_n_n_0_1_15_wf) a11 (val_main_v38 (F := Ideal) a0))
          a3 a4 a5 a6 := by
  unfold selected
  rw [← host_picked (M := 16384) (C := 256) bcast_S16384_S16384x1_0 bcast_S_S16384x1 bcast_S16384x1_S16384x256_0_1 bcast_S_S16384x256,
    ← host_layer1 (M := 16384) (K := 256) (N := 256) dot_S16384x256_S256x256_S16384x256_1_0_0_1_n_n rfl none _ a5 a6
      bcast_S256_S1x256_1 bcast_S1x256_S16384x256_0_1 bcast_S_S16384x256,
    ← host_layer1 (M := 16384) (K := 256) (N := 256) dot_S16384x256_S256x256_S16384x256_1_0_0_1_n_n rfl none _ a3 a4
      bcast_S256_S1x256_1 bcast_S1x256_S16384x256_0_1 bcast_S_S16384x256,
    ← host_count (M := 16384) (G := 5) reducesTo_S16384x5_S16384_d1 (by decide) h_S_,
    ← host_pooled (N := 20000) (M := 16384) (G := 5) (C := 256) (by decide) 20000#32
      gather_S20000x256_S16384x5x1_S16384x5x256_2_0_n_n_0_2_1256_wf gather_S20000x256_S16384x5x1_S16384x5x256_2_0_n_n_0_2_1256 rfl
      bcast_S_S16384x5 bcast_S16384x5_S16384x5x1_0_1 bcast_S16384x5x1_S16384x5x256_0_1_2 reducesTo_S16384x5x256_S16384x256_d1 (by decide) h_S_]
  rfl

end Cert.ReferenceIdeal.Whole

end
-- ==== Proof.Bridge.lean ====
/-
  The two programs compute one function of the argument arrays.

  The embedded table: the kernel's two regions are dense layers whose bias row is a spread zero, so the first is the
  reference's matrix product followed by its rectifier and the second the bare matrix product, on the same aggregates.
  The result: the kernel selects per condition and then gathers the rows the batch asks for; the reference gathers
  the conditions' row numbers and masks for the batch first and selects per element of the batch.  Every row of the
  selected matrix is a function of that row of the row numbers and of the mask alone, so the two orders agree.
-/
import proofs.«181204_j82789789598114_1_alg».proof.Proof.KernelValue
import proofs.«181204_j82789789598114_1_alg».proof.Proof.RefValue

set_option maxRecDepth 16384

noncomputable section

namespace Cert.Bridge

open Idealize.ShloMosaic Idealize.ShloMosaic.TcCoe Idealize.SL.Sem
open Cert.LibDenseBlock Cert.LibPooledRows Cert.LibPooledLayers Cert.LibRowLayers Cert.SegmentDims

set_option maxHeartbeats 4000000 in
/-- The kernel's embedded table is the reference's. -/
theorem emb_eq (a1 : (⟨Cert.KernelIdeal.S20000x256, .f32⟩ : BufTy).Contents (Elt Ideal)) (a2 : (⟨Cert.KernelIdeal.S2x256x256, .f32⟩ : BufTy).Contents (Elt Ideal)) (a7 a8 : (⟨Cert.KernelIdeal.S640000, .i32⟩ : BufTy).Contents (Elt Ideal)) (a9 : (⟨Cert.KernelIdeal.S640000, .f32⟩ : BufTy).Contents (Elt Ideal)) :
    Cert.KernelIdeal.Whole.emb2 a1 a2 a7 a8 a9 = Cert.ReferenceIdeal.Read.val_main_v32 (F := Ideal) a1 a2 a7 a8 a9 := by
  unfold Cert.KernelIdeal.Whole.emb2 Cert.KernelIdeal.Whole.emb1 Cert.KernelIdeal.Whole.zeroRow
  rw [affine_zero_bias (M := 20000) (K := 256) (N := 256) Cert.ReferenceIdeal.dot_S20000x256_S256x256_S20000x256_1_0_0_1_n_n rfl none _ _
      Cert.KernelIdeal.Gen.bcast_S_S256 Cert.KernelIdeal.Gen.shapeCasts_S256_S1x256,
    affineRelu_zero_bias (M := 20000) (K := 256) (N := 256) Cert.ReferenceIdeal.dot_S20000x256_S256x256_S20000x256_1_0_0_1_n_n rfl none _ _
      Cert.KernelIdeal.Gen.bcast_S_S256 Cert.KernelIdeal.Gen.shapeCasts_S256_S1x256 Cert.ReferenceIdeal.Facts₀.bcast_S_S20000x256]
  rfl

set_option maxHeartbeats 4000000 in
/-- The reference's result stage is the kernel's result term. -/
theorem results_eq (a0 : (⟨Cert.KernelIdeal.S16384, .i32⟩ : BufTy).Contents (Elt Ideal)) (a1 : (⟨Cert.KernelIdeal.S20000x256, .f32⟩ : BufTy).Contents (Elt Ideal)) (a2 : (⟨Cert.KernelIdeal.S2x256x256, .f32⟩ : BufTy).Contents (Elt Ideal)) (a3 : (⟨Cert.KernelIdeal.S256x256, .f32⟩ : BufTy).Contents (Elt Ideal)) (a4 : (⟨Cert.KernelIdeal.S256, .f32⟩ : BufTy).Contents (Elt Ideal)) (a5 : (⟨Cert.KernelIdeal.S256x256, .f32⟩ : BufTy).Contents (Elt Ideal)) (a6 : (⟨Cert.KernelIdeal.S256, .f32⟩ : BufTy).Contents (Elt Ideal)) (a7 : (⟨Cert.KernelIdeal.S640000, .i32⟩ : BufTy).Contents (Elt Ideal)) (a8 : (⟨Cert.KernelIdeal.S640000, .i32⟩ : BufTy).Contents (Elt Ideal)) (a9 : (⟨Cert.KernelIdeal.S640000, .f32⟩ : BufTy).Contents (Elt Ideal)) (a10 : (⟨Cert.KernelIdeal.S2000x5, .i32⟩ : BufTy).Contents (Elt Ideal)) (a11 : (⟨Cert.KernelIdeal.S2000x5, .f32⟩ : BufTy).Contents (Elt Ideal)) :
    Cert.ReferenceIdeal.Read.val_main_v77 (F := Ideal) a0 a1 a2 a3 a4 a5 a6 a7 a8 a9 a10 a11
      = Host.gather (rowGatherDims 2000 16384 256 Cert.KernelIdeal.Gen.gather_S2000x256_S16384x1_S16384x256_1_0_n_n_0_1_1256_wf)
          (selected (N := 20000) (M := 2000) (G := 5) (C := 256) (H := 256) (by decide) 20000#32 (Cert.KernelIdeal.Whole.emb2 a1 a2 a7 a8 a9)
            a10 a11 a3 a4 a5 a6)
          (Cert.KernelIdeal.Whole.batchRows a0) := by
  rw [Cert.ReferenceIdeal.Whole.result,
    selected_gathered (N := 20000) (M := 2000) (B := 16384) (G := 5) (C := 256) (H := 256) (by decide) (by decide) 20000#32
      (Cert.KernelIdeal.Whole.emb2 a1 a2 a7 a8 a9) a10 a11 a3 a4 a5 a6 (Cert.KernelIdeal.Whole.batchRows a0)
      Cert.KernelIdeal.Gen.gather_S2000x256_S16384x1_S16384x256_1_0_n_n_0_1_1256_wf
      Cert.ReferenceIdeal.Facts₀.gather_S2000x5_S16384x1_S16384x5_1_0_n_n_0_1_15_wf,
    emb_eq]
  rfl

end Cert.Bridge

end
-- ==== Proof.lean ====
/-
  A graph network over a table of embeddings, pooled per condition and sent through a small perceptron.

  Both programs aggregate the table over the graph's edges and apply a weight matrix, twice (a rectifier between); pool,
  for a condition, up to five rows of the embedded table weighted by a mask; count the mask; send the pooled row through
  two rectified dense layers; and select zero, the pooled row or the perceptron's row as the count is zero, one or more.
  The kernel does the dense layers in four regions on blocks of two thousand rows, computes one row per condition and
  gathers, last, the row of each element of the batch; the reference gathers each element's row numbers and mask first
  and computes one row per element.  On the extended reals the regions' dense layers are the reference's matrix products
  (a bias of zero adds nothing; a change of float format changes nothing), and every row of the selected matrix is a
  function of that row of its inputs alone, so gathering first or last gives the same array.  No law beyond x + 0 = x is
  used, and the precondition is not needed.
-/
import proofs.«181204_j82789789598114_1_alg».proof.Defs
import proofs.«181204_j82789789598114_1_alg».proof.Proof.Gen.Kernel
import proofs.«181204_j82789789598114_1_alg».proof.Proof.Gen.Kernel.Frame
import proofs.«181204_j82789789598114_1_alg».proof.Proof.Gen.KernelIdeal
import proofs.«181204_j82789789598114_1_alg».proof.Proof.Gen.KernelIdeal.Frame
import proofs.«181204_j82789789598114_1_alg».proof.Proof.Gen.ReferenceIdeal
import proofs.«181204_j82789789598114_1_alg».proof.Proof.Gen.Pre_finite_inputs
import proofs.«181204_j82789789598114_1_alg».proof.Proof.Gen.ReferenceIdeal.Run
import proofs.«181204_j82789789598114_1_alg».proof.Proof.Gen.ReferenceIdeal.Read
import proofs.«181204_j82789789598114_1_alg».proof.Proof.KernelRun
import proofs.«181204_j82789789598114_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- Both runs end, the kernel's result at the last boundary's contents of its fold and the reference's at its composed
    term; both are one function of arguments that agree. -/
theorem algebraic : Cert.algebraic_KernelIdeal_ReferenceIdeal := by
  intro m ρ m' ρ' _ hagree
  refine ⟨fun c => Cert.KernelIdeal.Gen.W13 m ρ c (Proc.devRef .tc Cert.KernelIdeal.main_v67), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v77_eq, h0, h1, h2, h3, h4, h5, h6, h7, h8, h9, h10, h11]
  exact (Cert.Bridge.results_eq _ _ _ _ _ _ _ _ _ _ _ _).trans (Cert.KernelIdeal.Whole.result m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
